-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128 : Shape := ⟨1, ![128]⟩
abbrev S128x128 : Shape := ⟨2, ![128, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S128 .f32) (main_arg5 : FVec F S2x128 .f32) (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S128 .f32) (main_arg3 : FVec F S128x128 .f32) (main_arg4 : FVec F S128 .f32) (main_arg5 : FVec F S2x128 .f32) (main_arg6 : FVec F S128 .f32) (main_arg7 : FVec F S128x64 .f32) (main_arg8 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128 : Shape := ⟨1, ![128]⟩
abbrev S128x128 : Shape := ⟨2, ![128, 128]⟩
abbrev S2x128 : Shape := ⟨2, ![2, 128]⟩
abbrev S128x64 : Shape := ⟨2, ![128, 64]⟩
abbrev S64 : Shape := ⟨1, ![64]⟩
abbrev S1x128 : Shape := ⟨2, ![1, 128]⟩
abbrev S200x10000 : Shape := ⟨2, ![200, 10000]⟩
abbrev S200x128 : Shape := ⟨2, ![200, 128]⟩
abbrev S400x10000 : Shape := ⟨2, ![400, 10000]⟩
abbrev S400x128 : Shape := ⟨2, ![400, 128]⟩
abbrev S1x64 : Shape := ⟨2, ![1, 64]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩

abbrev nBuf : Space → Nat
  | .hbm => 24
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x128, .f32⟩
  | .hbm, ⟨10, _⟩ => ⟨S1x128, .f32⟩
  | .hbm, ⟨11, _⟩ => ⟨S10000x128, .f32⟩
  | .hbm, ⟨12, _⟩ => ⟨S10000x10000, .bf16⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S10000x128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S10000x128, .f32⟩
  | .hbm, ⟨21, _⟩ => ⟨S1x128, .f32⟩
  | .hbm, ⟨22, _⟩ => ⟨S1x64, .f32⟩
  | .hbm, ⟨23, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S200x128, .f32⟩
  | .local _ .vmem, ⟨7, _⟩ => ⟨S200x128, .f32⟩
  | .local _ .vmem, ⟨8, _⟩ => ⟨S200x10000, .bf16⟩
  | .local _ .vmem, ⟨9, _⟩ => ⟨S200x10000, .bf16⟩
  | .local _ .vmem, ⟨10, _⟩ => ⟨S400x10000, .bf16⟩
  | .local _ .vmem, ⟨11, _⟩ => ⟨S400x10000, .bf16⟩
  | .local _ .vmem, ⟨12, _⟩ => ⟨S10000x128, .f32⟩
  | .local _ .vmem, ⟨13, _⟩ => ⟨S1x128, .f32⟩
  | .local _ .vmem, ⟨14, _⟩ => ⟨S400x128, .f32⟩
  | .local _ .vmem, ⟨15, _⟩ => ⟨S400x128, .f32⟩
  | .local _ .vmem, ⟨16, _⟩ => ⟨S400x10000, .bf16⟩
  | .local _ .vmem, ⟨17, _⟩ => ⟨S400x10000, .bf16⟩
  | .local _ .vmem, ⟨18, _⟩ => ⟨S10000x128, .f32⟩
  | .local _ .vmem, ⟨19, _⟩ => ⟨S1x128, .f32⟩
  | .local _ .vmem, ⟨20, _⟩ => ⟨S400x128, .f32⟩
  | .local _ .vmem, ⟨21, _⟩ => ⟨S400x128, .f32⟩
  | .local _ .vmem, ⟨22, _⟩ => ⟨S400x10000, .bf16⟩
  | .local _ .vmem, ⟨23, _⟩ => ⟨S400x10000, .bf16⟩
  | .local _ .vmem, ⟨24, _⟩ => ⟨S10000x128, .f32⟩
  | .local _ .vmem, ⟨25, _⟩ => ⟨S1x128, .f32⟩
  | .local _ .vmem, ⟨26, _⟩ => ⟨S128x64, .f32⟩
  | .local _ .vmem, ⟨27, _⟩ => ⟨S1x64, .f32⟩
  | .local _ .vmem, ⟨28, _⟩ => ⟨S400x64, .f32⟩
  | .local _ .vmem, ⟨29, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v6 : BitVec 32 := Scalar.muli arg0 c200_i32
  let v7 : Index := Scalar.indexCast v6
  let c0_5 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_3 : Index := 0#32
  ![v7.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def k2_off1 (i : grid2.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_3 : Index := 0#32
  ![v7.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def k3_off1 (i : grid3.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_3 : Index := 0#32
  ![v7.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  h_S200x128 : 0 < S200x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x128_S128x128_0_0 : ∀ a, (![0, 0] : Fin 2 → Nat) a + S128x128.size a ≤ S128x128.size a
  h_S128x128 : 0 < S128x128.numel
  inb_S200x128_S200x128_0_0 : ∀ a, (![0, 0] : Fin 2 → Nat) a + S200x128.size a ≤ S200x128.size a
  slices_S2x128_S1x128_0_0 : S2x128.Slices ![0, 0] S1x128
  shapeCasts_S1x128_S128 : S1x128.ShapeCasts S128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  shapeCasts_S10000x128_S10000x128 : S10000x128.ShapeCasts S10000x128
  h_S400x128 : 0 < S400x128.numel
  shapeCasts_S400x128_S400x128 : S400x128.ShapeCasts S400x128
  broadcasts_S1x128_S400x128 : S1x128.Broadcasts S400x128
  inb_S400x128_S400x128_0_0 : ∀ a, (![0, 0] : Fin 2 → Nat) a + S400x128.size a ≤ S400x128.size a
  slices_S2x128_S1x128_1_0 : S2x128.Slices ![1, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .bf16 = 32 ∨ (Rect.block (s := S10000x10000) S200x10000.size (cc0_transform_6 i) (hinb0_6 i)).WholeWords (EltTy.packing .bf16)
  hrank1 : 0 < grid1.rank
  k1_off1_inb : ∀ i : grid1.Coords, ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hrank2 : 0 < grid2.rank
  k2_off1_inb : ∀ i : grid2.Coords, ∀ a, (k2_off1 i) a + S400x128.size a ≤ S10000x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hrank3 : 0 < grid3.rank
  k3_off1_inb : ∀ i : grid3.Coords, ∀ a, (k3_off1 i) a + S400x128.size a ≤ S10000x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S400x64.size a ≤ S10000x64.size a
  hwx3_5 : ∀ i : grid3.Coords, EltTy.bits .f32 = 32 ∨ (Rect.block (s := S10000x64) S400x64.size (cc3_transform_5 i) (hinb3_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S200x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S400x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128 : Shape := ⟨1, ![128]⟩
abbrev S128x128 : Shape := ⟨2, ![128, 128]⟩
abbrev S2x128 : Shape := ⟨2, ![2, 128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S1x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S10000x64, .f32⟩
  | .hbm, ⟨41, _⟩ => ⟨S1x64, .f32⟩
  | .hbm, ⟨42, _⟩ => ⟨S10000x64, .f32⟩
  | .hbm, ⟨43, _⟩ => ⟨S10000x64, .f32⟩
  | .hbm, ⟨44, _⟩ => ⟨S_, .f32⟩
  | .hbm, ⟨45, _⟩ => ⟨S10000, .f32⟩
  | .hbm, ⟨46, _⟩ => ⟨S_, .f32⟩
  | .hbm, ⟨47, _⟩ => ⟨S10000, .f32⟩
  | .hbm, ⟨48, _⟩ => ⟨S10000, .f32⟩
  | .hbm, ⟨49, _⟩ => ⟨S10000x1, .f32⟩
  | .hbm, ⟨50, _⟩ => ⟨S10000x64, .f32⟩
  | .hbm, ⟨51, _⟩ => ⟨S10000x64, .f32⟩
  | .hbm, ⟨52, _⟩ => ⟨S10000x64, .f32⟩
  | .hbm, ⟨53, _⟩ => ⟨S_, .f32⟩
  | .hbm, ⟨54, _⟩ => ⟨S10000, .f32⟩
  | .hbm, ⟨55, _⟩ => ⟨S10000x1, .f32⟩
  | .hbm, ⟨56, _⟩ => ⟨S10000x1, .f32⟩
  | .hbm, ⟨57, _⟩ => ⟨S10000x64, .f32⟩
  | .hbm, ⟨58, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x128_S1x128_0_0 : S2x128.Slices ![0, 0] S1x128
  shapeCasts_S1x128_S128 : S1x128.ShapeCasts S128
  slices_S2x128_S1x128_1_0 : S2x128.Slices ![1, 0] S1x128
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.Spec.lean ====
/-
  The graph network both programs compute, as functions on the extended reals.

  A matrix is a function of its index. With L the n × n operator, h an n × d activation matrix and σ a vector of d
  per-feature scales, one propagation step is  (L h)(r, k) = Σ i, L (r, i) · h (i, k),  one filtered layer is
  h − (L h) · diag σ, and a dense layer adds a bias to a product with a weight matrix. The first layer is a filtered
  layer followed by a dense layer and the maximum with zero; two filtered layers follow; the last is a filtered
  layer, a dense layer and, row by row, the logarithm of the softmax in its shifted form:
  with m the row's maximum, (z − m) − log Σ k, exp (z k − m).
-/
import Idealize.ShloMosaic.PureOps.Ideal
import Idealize.ShloMosaic.Lib.ValueIdx

noncomputable section

namespace Cert.Layers

open Idealize.ShloMosaic Idealize.ShloMosaic.ValueIdx

/-- An a × b matrix of extended reals, by index. -/
abbrev Mat (a b : ℕ) := (⟨2, ![a, b]⟩ : Shape).Idx → EReal
/-- A vector of extended reals, by index. -/
abbrev Vect (a : ℕ) := (⟨1, ![a]⟩ : Shape).Idx → EReal

/-- The matrix whose entry (r, k) is f r k. -/
def toMat {a b : ℕ} (f : Fin a → Fin b → EReal) : Mat a b := fun j => f (j 0) (j 1)

theorem toMat_apply {a b : ℕ} (f : Fin a → Fin b → EReal) (r : Fin a) (k : Fin b) : toMat f (ix2 r k) = f r k := rfl

/-- Entry (r, k) of the product L h. -/
def prop {n d : ℕ} (L : Mat n n) (h : Mat n d) (r : Fin n) (k : Fin d) : EReal := ∑ i : Fin n, L (ix2 r i) * h (ix2 i k)

/-- Entry (r, k) of h − (L h) · diag σ. -/
def filt {n d : ℕ} (L : Mat n n) (h : Mat n d) (σ : Fin d → EReal) (r : Fin n) (k : Fin d) : EReal :=
  h (ix2 r k) - prop L h r k * σ k

/-- The filtered layer as a matrix. -/
def filtM {n d : ℕ} (L : Mat n n) (h : Mat n d) (σ : Fin d → EReal) : Mat n d := toMat (filt L h σ)

/-- Entry (r, k) of e W + b. -/
def dense {n d p : ℕ} (e : Fin n → Fin d → EReal) (W : Mat d p) (b : Fin p → EReal) (r : Fin n) (k : Fin p) : EReal :=
  (∑ j : Fin d, e r j * W (ix2 j k)) + b k

/-- The first layer: filtered, dense, then the maximum with zero (the literal zero of the 32-bit format, kept as its word). -/
def first {n d p : ℕ} (L : Mat n n) (x : Mat n d) (σ : Fin d → EReal) (W : Mat d p) (b : Fin p → EReal) : Mat n p :=
  toMat fun r k => max (dense (filt L x σ) W b r k) (Ideal.ofBits .f32 0x00000000#32)

/-- A row's maximum, folded from minus infinity (kept as its word). -/
def rowMax {n p : ℕ} (z : Fin n → Fin p → EReal) (r : Fin n) : EReal :=
  (Finset.univ : Finset (Fin p)).fold max (Ideal.ofBits .f32 0xFF800000#32) (fun k => z r k)

/-- The logarithm of the softmax of each row, in the shifted form. -/
def logSoftmax {n p : ℕ} (z : Fin n → Fin p → EReal) : Mat n p :=
  toMat fun r k => (z r k - rowMax z r) - Ideal.log (∑ k' : Fin p, Ideal.exp (z r k' - rowMax z r))

/-- The last layer: filtered, dense, then the row-wise logarithm of the softmax. -/
def last {n d p : ℕ} (L : Mat n n) (h : Mat n d) (σ : Fin d → EReal) (W : Mat d p) (b : Fin p → EReal) : Mat n p :=
  logSoftmax (dense (filt L h σ) W b)

/-- The whole network of the argument arrays. -/
def net (x : Mat 10000 128) (L : Mat 10000 10000) (s1 : Vect 128) (W1 : Mat 128 128) (b1 : Vect 128) (hs : Mat 2 128)
    (s2 : Vect 128) (W2 : Mat 128 64) (b2 : Vect 64) : Mat 10000 64 :=
  last L (filtM L (filtM L (first L x (fun k => s1 (ix1 k)) W1 (fun k => b1 (ix1 k))) (fun k => hs (ix2 (0 : Fin 2) k)))
    (fun k => hs (ix2 (1 : Fin 2) k))) (fun k => s2 (ix1 k)) W2 (fun k => b2 (ix1 k))

/-- Folding a maximum from c never goes below c, so a further maximum with c changes nothing. -/
theorem max_fold_self {ι : Type} (s : Finset ι) (c : EReal) (f : ι → EReal) : max c (s.fold max c f) = s.fold max c f :=
  max_eq_right (Finset.le_fold_max c |>.mpr (Or.inl le_rfl))

end Cert.Layers

end
-- ==== Proof.Rows.lean ====
/-
  Each layer's entry depends on one row of what it is given.

  Entry (r, k) of a filtered layer reads row r of the operator and row r of the activations (and every row of the
  activations through the product); a dense layer's entry (r, k) reads row r of its input; a row's maximum, and with
  it the logarithm of the softmax at (r, k), reads row r only. So a kernel that holds a band of rows computes, at local
  row p of its band, the whole-array value at the row the band places p at.
-/
import proofs.«144061_g8177617732284_cont_9to1_m_958_4_alg».proof.Proof.Spec

noncomputable section

namespace Cert.Layers

open Idealize.ShloMosaic Idealize.ShloMosaic.ValueIdx

/-- A band's filtered entry is the whole array's: the band holds row r of the operator and of the activations at its
    local row p. -/
theorem filt_of_band {n d a : ℕ} (L : Mat n n) (h : Mat n d) (σ : Fin d → EReal) (Lb : Mat a n) (hm : Mat a d)
    (p : Fin a) (r : Fin n) (hL : ∀ i, Lb (ix2 p i) = L (ix2 r i)) (hh : ∀ j, hm (ix2 p j) = h (ix2 r j)) (k : Fin d) :
    hm (ix2 p k) - (∑ i : Fin n, Lb (ix2 p i) * h (ix2 i k)) * σ k = filt L h σ r k := by
  unfold filt prop
  simp only [hL, hh]

/-- A dense layer's entry reads one row of its input. -/
theorem dense_row {n n' d p : ℕ} (e : Fin n → Fin d → EReal) (e' : Fin n' → Fin d → EReal) (W : Mat d p) (b : Fin p → EReal)
    (r : Fin n) (r' : Fin n') (h : ∀ j, e r j = e' r' j) (k : Fin p) : dense e W b r k = dense e' W b r' k := by
  unfold dense
  simp only [h]

/-- A row's maximum reads that row. -/
theorem rowMax_row {n n' p : ℕ} (z : Fin n → Fin p → EReal) (z' : Fin n' → Fin p → EReal) (r : Fin n) (r' : Fin n')
    (h : ∀ k, z r k = z' r' k) : rowMax z r = rowMax z' r' := by
  unfold rowMax
  simp only [h]

/-- The logarithm of the softmax at (r, k) reads row r. -/
theorem logSoftmax_row {n n' p : ℕ} (z : Fin n → Fin p → EReal) (z' : Fin n' → Fin p → EReal) (r : Fin n) (r' : Fin n')
    (h : ∀ k, z r k = z' r' k) (k : Fin p) : logSoftmax z (ix2 r k) = logSoftmax z' (ix2 r' k) := by
  show (z r k - rowMax z r) - Ideal.log (∑ k' : Fin p, Ideal.exp (z r k' - rowMax z r))
    = (z' r' k - rowMax z' r') - Ideal.log (∑ k' : Fin p, Ideal.exp (z' r' k' - rowMax z' r'))
  rw [rowMax_row z z' r r' h]
  simp only [h]

end Cert.Layers

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.Pay.lean ====
/-
  What each kernel body stores, entry by entry, on the extended reals.

  A body holds a band of a rows of the operator (a = 200 in the first region, 400 in the others), the whole activation
  matrix, and the band's own rows of it. Its products into a zero accumulator are plain sums over the contraction; the
  narrowing to the 16-bit format is the identity on the extended reals; a one-row parameter is read at its row 0; the
  lane reductions of the last body are a row's maximum folded from minus infinity and a row's sum. So every stored entry
  is the layer's formula at local row p of the band.
-/
import proofs.«144061_g8177617732284_cont_9to1_m_958_4_alg».proof.Proof.Rows
import proofs.«144061_g8177617732284_cont_9to1_m_958_4_alg».proof.Proof.LibDotRead
import proofs.«144061_g8177617732284_cont_9to1_m_958_4_alg».proof.Proof.LibLayoutRead
import proofs.«144061_g8177617732284_cont_9to1_m_958_4_alg».proof.Proof.Gen.KernelIdeal.Skeleton
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Layers

/-- The record `dot_S200x10000_S10000x128_S200x128_1_0_0_1_n_n` is a plain product: rows × contraction times contraction × columns. -/
theorem plain_band200 : Cert.DotRead.Plain dot_S200x10000_S10000x128_S200x128_1_0_0_1_n_n where
  rank := rfl
  size := rfl
  lhs0 := fun i q => by
    unfold DotDims.lhsIdx
    rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
    rfl
  lhs1 := fun i q => dot_S200x10000_S10000x128_S200x128_1_0_0_1_n_n.lhsIdx_val_of_single rfl i q
  rhs0 := fun i q => dot_S200x10000_S10000x128_S200x128_1_0_0_1_n_n.rhsIdx_val_of_single rfl i q
  rhs1 := fun i q => by
    unfold DotDims.rhsIdx
    rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
    rfl

/-- The record `dot_S200x128_S128x128_S200x128_1_0_0_1_n_n` is a plain product: rows × contraction times contraction × columns. -/
theorem plain_dense200 : Cert.DotRead.Plain dot_S200x128_S128x128_S200x128_1_0_0_1_n_n where
  rank := rfl
  size := rfl
  lhs0 := fun i q => by
    unfold DotDims.lhsIdx
    rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
    rfl
  lhs1 := fun i q => dot_S200x128_S128x128_S200x128_1_0_0_1_n_n.lhsIdx_val_of_single rfl i q
  rhs0 := fun i q => dot_S200x128_S128x128_S200x128_1_0_0_1_n_n.rhsIdx_val_of_single rfl i q
  rhs1 := fun i q => by
    unfold DotDims.rhsIdx
    rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
    rfl

/-- The record `dot_S400x10000_S10000x128_S400x128_1_0_0_1_n_n` is a plain product: rows × contraction times contraction × columns. -/
theorem plain_band400 : Cert.DotRead.Plain dot_S400x10000_S10000x128_S400x128_1_0_0_1_n_n where
  rank := rfl
  size := rfl
  lhs0 := fun i q => by
    unfold DotDims.lhsIdx
    rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
    rfl
  lhs1 := fun i q => dot_S400x10000_S10000x128_S400x128_1_0_0_1_n_n.lhsIdx_val_of_single rfl i q
  rhs0 := fun i q => dot_S400x10000_S10000x128_S400x128_1_0_0_1_n_n.rhsIdx_val_of_single rfl i q
  rhs1 := fun i q => by
    unfold DotDims.rhsIdx
    rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
    rfl

/-- The record `dot_S400x128_S128x64_S400x64_1_0_0_1_n_n` is a plain product: rows × contraction times contraction × columns. -/
theorem plain_dense400 : Cert.DotRead.Plain dot_S400x128_S128x64_S400x64_1_0_0_1_n_n where
  rank := rfl
  size := rfl
  lhs0 := fun i q => by
    unfold DotDims.lhsIdx
    rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
    rfl
  lhs1 := fun i q => dot_S400x128_S128x64_S400x64_1_0_0_1_n_n.lhsIdx_val_of_single rfl i q
  rhs0 := fun i q => dot_S400x128_S128x64_S400x64_1_0_0_1_n_n.rhsIdx_val_of_single rfl i q
  rhs1 := fun i q => by
    unfold DotDims.rhsIdx
    rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
    rfl

/-- The band's filtered entry, as the body computes it: the band's own rows minus the product with the whole
    activation matrix (narrowed, which changes nothing here) scaled by the one-row parameter. -/
theorem band_filt {a : ℕ} {φ : FTy} (d : DotDims ⟨2, ![a, 10000]⟩ ⟨2, ![10000, 128]⟩ ⟨2, ![a, 128]⟩) (hd : Cert.DotRead.Plain d)
    (Lb : FVec Ideal ⟨2, ![a, 10000]⟩ φ) (h : FVec Ideal ⟨2, ![10000, 128]⟩ .f32) (hl : FTy.bf16.bits < FTy.f32.bits)
    (hm : FVec Ideal ⟨2, ![a, 128]⟩ .f32) (sg : FVec Ideal ⟨2, ![1, 128]⟩ .f32)
    (hb : (⟨2, ![1, 128]⟩ : Shape).Broadcasts ⟨2, ![a, 128]⟩) (p : Fin a) (k : Fin 128) :
    subf hm (mulf (matmul d none Lb (truncf .bf16 h hl) (constant (F := Ideal) ⟨2, ![a, 128]⟩ .f32 0x00000000#32))
        (broadcastTo ⟨2, ![a, 128]⟩ sg hb)) (ix2 p k)
      = hm (ix2 p k) - (∑ i : Fin 10000, Lb (ix2 p i) * h (ix2 i k)) * sg (ix2 (0 : Fin 1) k) := by
  rw [subf_apply, mulf_apply, Cert.DotRead.matmul_zero_apply d hd, broadcastTo_1b_ab_apply]
  rfl

/-- A dense product of a band with a weight matrix, plus the one-row bias. -/
theorem band_dense {a q : ℕ} (d : DotDims ⟨2, ![a, 128]⟩ ⟨2, ![128, q]⟩ ⟨2, ![a, q]⟩) (hd : Cert.DotRead.Plain d)
    (e : FVec Ideal ⟨2, ![a, 128]⟩ .f32) (W : FVec Ideal ⟨2, ![128, q]⟩ .f32) (b : FVec Ideal ⟨2, ![1, q]⟩ .f32)
    (hb : (⟨2, ![1, q]⟩ : Shape).Broadcasts ⟨2, ![a, q]⟩) (p : Fin a) (k : Fin q) :
    addf (matmul d none e W (constant (F := Ideal) ⟨2, ![a, q]⟩ .f32 0x00000000#32)) (broadcastTo ⟨2, ![a, q]⟩ b hb) (ix2 p k)
      = dense (fun p j => e (ix2 p j)) W (fun k => b (ix2 (0 : Fin 1) k)) p k := by
  rw [addf_apply, Cert.DotRead.matmul_zero_apply d hd, broadcastTo_1b_ab_apply]
  rfl

/-- The middle regions' stored entry. -/
theorem mid1_at (x0 : Vec Ideal S400x10000 .bf16) (x1 : Vec Ideal S10000x128 .f32) (x8 : Vec Ideal S400x128 .f32)
    (x10 : Vec Ideal S1x128 .f32) (p : Fin 400) (k : Fin 128) :
    k1_pay1 x0 x1 x8 x10 (ix2 p k)
      = x8 (ix2 p k) - (∑ i : Fin 10000, x0 (ix2 p i) * x1 (ix2 i k)) * x10 (ix2 (0 : Fin 1) k) := by
  unfold k1_pay1
  simp only [shapeCast_self]
  exact band_filt _ plain_band400 x0 x1 _ x8 x10 _ p k

theorem mid2_at (x0 : Vec Ideal S400x10000 .bf16) (x1 : Vec Ideal S10000x128 .f32) (x8 : Vec Ideal S400x128 .f32)
    (x10 : Vec Ideal S1x128 .f32) (p : Fin 400) (k : Fin 128) :
    k2_pay1 x0 x1 x8 x10 (ix2 p k)
      = x8 (ix2 p k) - (∑ i : Fin 10000, x0 (ix2 p i) * x1 (ix2 i k)) * x10 (ix2 (0 : Fin 1) k) := by
  unfold k2_pay1
  simp only [shapeCast_self]
  exact band_filt _ plain_band400 x0 x1 _ x8 x10 _ p k

/-- The first region's stored entry: the dense layer of the band's filtered rows, then the maximum with zero. -/
theorem first_at (v0 : Vec Ideal S200x10000 .f32) (v3 : Vec Ideal S10000x128 .f32) (v8 : Vec Ideal S200x128 .f32)
    (v9 : Vec Ideal S1x128 .f32) (v14 : Vec Ideal S128x128 .f32) (v16 : Vec Ideal S1x128 .f32) (p : Fin 200) (k : Fin 128) :
    k0_pay2 v0 v3 v8 v9 v14 v16 (ix2 p k)
      = max (dense (fun p j => v8 (ix2 p j) - (∑ i : Fin 10000, v0 (ix2 p i) * v3 (ix2 i j)) * v9 (ix2 (0 : Fin 1) j))
          v14 (fun k => v16 (ix2 (0 : Fin 1) k)) p k) (Ideal.ofBits .f32 0x00000000#32) := by
  unfold k0_pay2 k0_pay1
  simp only [shapeCast_self]
  rw [maximumf_apply, band_dense _ plain_dense200]
  refine congrArg₂ max ?_ rfl
  exact dense_row _ _ _ _ p p (fun j => band_filt _ plain_band200 (truncf .bf16 v0 bitsLt_bf16_f32) v3 _ v8 v9 _ p j) k

/-- The row-wise tail of the last body on a band z: the lane maximum from minus infinity, the shift, the lane sum of the
    exponentials, its logarithm spread back over the lanes — the logarithm of the softmax of each row of the band. -/
theorem band_logSoftmax {a q : ℕ} (z : FVec Ideal ⟨2, ![a, q]⟩ .f32) (hr : (⟨2, ![a, q]⟩ : Shape).Reduces [1] ⟨1, ![a]⟩)
    (hc : (⟨1, ![a]⟩ : Shape).ShapeCasts ⟨2, ![a, 1]⟩) (hb : (⟨2, ![a, 1]⟩ : Shape).Broadcasts ⟨2, ![a, q]⟩)
    (hφ : FKind.Formats .f32) (hmx : (0xFF800000#32 : BitVec FTy.f32.bits) = FKind.maximumf.neutral .f32 hφ) (p : Fin a) (k : Fin q) :
    subf (subf z (broadcastTo ⟨2, ![a, q]⟩ (shapeCast ⟨2, ![a, 1]⟩ (multiReduction .maximumf [1] ⟨1, ![a]⟩ z 0xFF800000#32 hr hφ hmx) hc) hb))
        (broadcastTo ⟨2, ![a, q]⟩ (log (shapeCast ⟨2, ![a, 1]⟩ (multiReduction .add [1] ⟨1, ![a]⟩
          (exp (subf z (broadcastTo ⟨2, ![a, q]⟩ (shapeCast ⟨2, ![a, 1]⟩ (multiReduction .maximumf [1] ⟨1, ![a]⟩ z 0xFF800000#32 hr hφ hmx) hc) hb)))
          0x00000000#32 hr (.inl rfl) rfl) hc)) hb) (ix2 p k)
      = logSoftmax (fun p k => z (ix2 p k)) (ix2 p k) := by
  have hmax : ∀ p : Fin a, multiReduction .maximumf [1] ⟨1, ![a]⟩ z 0xFF800000#32 hr hφ hmx (ix1 p) = rowMax (fun p k => z (ix2 p k)) p :=
    fun p => (Ideal.multiReduction_maximumf_single z 0xFF800000#32 hr hφ hmx (ix1 p)).trans
      (Finset.fold_congr fun k' _ => congrArg z (funext fun ax => by
        match ax with
        | ⟨0, _⟩ => rfl
        | ⟨1, _⟩ => rfl))
  have hzs : ∀ (p : Fin a) (k : Fin q),
      subf z (broadcastTo ⟨2, ![a, q]⟩ (shapeCast ⟨2, ![a, 1]⟩ (multiReduction .maximumf [1] ⟨1, ![a]⟩ z 0xFF800000#32 hr hφ hmx) hc) hb) (ix2 p k)
        = z (ix2 p k) - rowMax (fun p k => z (ix2 p k)) p := fun p k => by
    rw [subf_apply, Cert.LayoutRead.bcast_col, Cert.LayoutRead.cast_col, hmax]
  rw [subf_apply, hzs, Cert.LayoutRead.bcast_col]
  show _ - Ideal.log (shapeCast ⟨2, ![a, 1]⟩ _ hc (ix2 p (0 : Fin 1))) = _
  rw [Cert.LayoutRead.cast_col, Cert.LayoutRead.rowsum]
  show _ - Ideal.log (∑ k' : Fin q, Ideal.exp (subf z _ (ix2 p k'))) = _
  simp only [hzs]
  rfl

/-- The last region's stored entry: the logarithm of the softmax of the dense layer of the band's filtered rows. -/
theorem last_at (x0 : Vec Ideal S400x10000 .bf16) (x1 : Vec Ideal S10000x128 .f32) (x8 : Vec Ideal S400x128 .f32)
    (x10 : Vec Ideal S1x128 .f32) (x15 : Vec Ideal S128x64 .f32) (x17 : Vec Ideal S1x64 .f32) (p : Fin 400) (k : Fin 64) :
    k3_pay1 x0 x1 x8 x10 x15 x17 (ix2 p k)
      = logSoftmax (dense (fun p j => x8 (ix2 p j) - (∑ i : Fin 10000, x0 (ix2 p i) * x1 (ix2 i j)) * x10 (ix2 (0 : Fin 1) j))
          x15 (fun k => x17 (ix2 (0 : Fin 1) k))) (ix2 p k) := by
  unfold k3_pay1
  simp only [shapeCast_self]
  refine (band_logSoftmax _ reduces_S400x64_S400 shapeCasts_S400_S400x1 broadcasts_S400x1_S400x64 (.inl rfl) rfl p k).trans ?_
  refine logSoftmax_row _ _ p p (fun k' => ?_) k
  refine (band_dense _ plain_dense400 _ x15 x17 _ p k').trans ?_
  exact dense_row _ _ _ _ p p (fun j => band_filt _ plain_band400 x0 x1 _ x8 x10 _ p j) k'

end Cert.KernelIdeal.Pay

end
-- ==== Proof.First.lean ====
/-
  Region 0: the first layer, band by band, and the operator's narrowed copy.

  The grid has 50 points; point t holds rows 200 t … 200 t + 199 of the operator (window 0), the whole feature matrix
  (window 1), the one-row scale (window 2), the weight matrix (window 3), the one-row bias (window 4); it writes back
  rows 200 t … 200 t + 199 of the activations (window 5) and of the operator's 16-bit copy (window 6). The body stores
  one whole block into each output. On the extended reals the narrowed copy is the operator itself; the activation
  entry at local row p is the first layer's entry at row 200 t + p. The 50 bands tile the 10000 rows.
-/
import proofs.«144061_g8177617732284_cont_9to1_m_958_4_alg».proof.Proof.Pay
import proofs.«144061_g8177617732284_cont_9to1_m_958_4_alg».proof.Proof.Gen.KernelIdeal.Frame

set_option maxRecDepth 16384

noncomputable section

namespace Cert.KernelIdeal.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Layers

theorem hz : (![0, 0] : Fin 2 → Nat) = fun _ => 0 := funext fun a => by fin_cases a <;> rfl

/-- What the body leaves in the activations' staging buffer is its one stored value, of the loaded blocks. -/
theorem out5_eq {F : FTy → Type} [FloatOps F] (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .bf16) (harg7 : arg7.IsWhole)
    (x0 : Vec F S200x10000 .f32) (x1 : Vec F S10000x128 .f32) (x2 : Vec F S1x128 .f32) (x3 : Vec F S128x128 .f32) (x4 : Vec F S1x128 .f32) :
    out0_A_5 (F := F) c i arg1 harg1 arg2 harg2 arg3 harg3 arg4 harg4 arg5 harg5 arg6 harg6 arg7 harg7 x0 x1 x2 x3 x4
      = k0_pay2 x0 x1 (View.ld x1 (Rect.unit (s := S10000x128) (k0_off1 i) S200x128.size (k0_off1_inb i))) x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  rw [View.canon_unit_zero hz]
  simp only [View.readAt_eq_ld, harg1.read_unread, harg2.read_unread, harg3.read_unread, harg4.read_unread, harg5.read_unread,
    View.ld_unit_zero (S := S200x10000) hz, View.ld_unit_zero (S := S10000x128) hz, View.ld_unit_zero (S := S1x128) hz,
    View.ld_unit_zero (S := S128x128) hz]

/-- What the body leaves in the copy's staging buffer is the narrowed operator band. -/
theorem out6_eq {F : FTy → Type} [FloatOps F] (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .bf16) (harg7 : arg7.IsWhole)
    (x0 : Vec F S200x10000 .f32) (x1 : Vec F S10000x128 .f32) (x2 : Vec F S1x128 .f32) (x3 : Vec F S128x128 .f32) (x4 : Vec F S1x128 .f32) :
    out0_A_6 (F := F) c i arg1 harg1 arg2 harg2 arg3 harg3 arg4 harg4 arg5 harg5 arg6 harg6 arg7 harg7 x0 x1 x2 x3 x4 = k0_pay1 x0 := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  rw [View.canon_unit_zero hz]
  simp only [View.readAt_eq_ld, harg1.read_unread, View.ld_unit_zero (S := S200x10000) hz]

/-- The printed index maps over the grid: the band windows move with the point, the others stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ ((grid0.coords t) 0).val = t.val :=
  (by decide +kernel : ∀ t : Fin grid0.N, _)

section
variable (V : (c : Dev nD) → (b : Ref sig .tc) → Buf (Elt Ideal) ((c : Thread nD τ).loc b))

/-- The operator's band at point t: local row p is row 200 t + p. -/
theorem band_read (c : Dev nD) (t : Fin cfg0.N) (p : Fin 200) (j : Fin 10000) (r : Fin 10000) (hr : r.val = 200 * t.val + p.val) :
    iblk0 V c 0 t (ix2 p j) = V c main_arg1 (ix2 r j) := by
  show V c main_arg1 (((cfg0.win 0).blk t).view.emb (ix2 p j)) = V c main_arg1 (ix2 r j)
  refine congrArg (V c main_arg1) (funext fun a => Fin.ext ?_)
  obtain ⟨e0, e1, -⟩ := idx_facts t
  match a with
  | ⟨0, _⟩ => show win0_0.index t (0 : Fin 2) * 200 + 1 * p.val = r.val; omega
  | ⟨1, _⟩ => show win0_0.index t (1 : Fin 2) * 10000 + 1 * j.val = j.val; omega

/-- The feature matrix, the scale, the weights and the bias are staged whole. -/
theorem feat_read (c : Dev nD) (t : Fin cfg0.N) : (iblk0 V c 1 t : S10000x128.Idx → EReal) = V c main_arg0 := by
  funext y
  show V c main_arg0 (((cfg0.win 1).blk t).view.emb y) = V c main_arg0 y
  refine congrArg (V c main_arg0) (funext fun a => Fin.ext ?_)
  have hf := idx_facts t
  match a with
  | ⟨0, _⟩ => show win0_1.index t (0 : Fin 2) * 10000 + 1 * (y 0).val = (y 0).val; have := hf.2.2.1; omega
  | ⟨1, _⟩ => show win0_1.index t (1 : Fin 2) * 128 + 1 * (y 1).val = (y 1).val; have := hf.2.2.2.1; omega

theorem scale_read (c : Dev nD) (t : Fin cfg0.N) : (iblk0 V c 2 t : S1x128.Idx → EReal) = V c main_v0 := by
  funext y
  show V c main_v0 (((cfg0.win 2).blk t).view.emb y) = V c main_v0 y
  refine congrArg (V c main_v0) (funext fun a => Fin.ext ?_)
  have hf := idx_facts t
  match a with
  | ⟨0, _⟩ => show win0_2.index t (0 : Fin 2) * 1 + 1 * (y 0).val = (y 0).val; have := hf.2.2.2.2.1; omega
  | ⟨1, _⟩ => show win0_2.index t (1 : Fin 2) * 128 + 1 * (y 1).val = (y 1).val; have := hf.2.2.2.2.2.1; omega

theorem weight_read (c : Dev nD) (t : Fin cfg0.N) : (iblk0 V c 3 t : S128x128.Idx → EReal) = V c main_arg3 := by
  funext y
  show V c main_arg3 (((cfg0.win 3).blk t).view.emb y) = V c main_arg3 y
  refine congrArg (V c main_arg3) (funext fun a => Fin.ext ?_)
  have hf := idx_facts t
  match a with
  | ⟨0, _⟩ => show win0_3.index t (0 : Fin 2) * 128 + 1 * (y 0).val = (y 0).val; have := hf.2.2.2.2.2.2.1; omega
  | ⟨1, _⟩ => show win0_3.index t (1 : Fin 2) * 128 + 1 * (y 1).val = (y 1).val; have := hf.2.2.2.2.2.2.2.1; omega

theorem bias_read (c : Dev nD) (t : Fin cfg0.N) : (iblk0 V c 4 t : S1x128.Idx → EReal) = V c main_v1 := by
  funext y
  show V c main_v1 (((cfg0.win 4).blk t).view.emb y) = V c main_v1 y
  refine congrArg (V c main_v1) (funext fun a => Fin.ext ?_)
  have hf := idx_facts t
  match a with
  | ⟨0, _⟩ => show win0_4.index t (0 : Fin 2) * 1 + 1 * (y 0).val = (y 0).val; have := hf.2.2.2.2.2.2.2.2.1; omega
  | ⟨1, _⟩ => show win0_4.index t (1 : Fin 2) * 128 + 1 * (y 1).val = (y 1).val; have := hf.2.2.2.2.2.2.2.2.2.1; omega

/-- The body's own cut of the feature matrix at point t: local row p is row 200 t + p. -/
theorem own_rows (X : Vec Ideal S10000x128 .f32) (t : Fin cfg0.N) (p : Fin 200) (k : Fin 128) (r : Fin 10000) (hr : r.val = 200 * t.val + p.val) :
    View.ld X (Rect.unit (s := S10000x128) (k0_off1 (grid0.coords t)) S200x128.size (k0_off1_inb (grid0.coords t))) (ix2 p k) = X (ix2 r k) := by
  show X ((Rect.unit (s := S10000x128) (k0_off1 (grid0.coords t)) S200x128.size (k0_off1_inb (grid0.coords t))).emb (ix2 p k)) = X (ix2 r k)
  refine congrArg X (funext fun a => Fin.ext ?_)
  have e8 := (idx_facts t).2.2.2.2.2.2.2.2.2.2.2.2.2.2
  match a with
  | ⟨0, _⟩ =>
    show (k0_off1 (grid0.coords t)) 0 + 1 * p.val = r.val
    rw [k0_off1_eq]
    show 200 * ((grid0.coords t) 0).val + 1 * p.val = r.val
    omega
  | ⟨1, _⟩ =>
    show (k0_off1 (grid0.coords t)) 1 + 1 * k.val = k.val
    rw [k0_off1_eq]
    show 0 + 1 * k.val = k.val
    omega

/-- The activations' band at point t places local (p, k) at (200 t + p, k). -/
theorem out5_place (t : Fin cfg0.N) (p : Fin 200) (k : Fin 128) (r : Fin 10000) (hr : r.val = 200 * t.val + p.val) :
    ((cfg0.win 5).blk t).view.emb (ix2 p k) = ix2 r k := by
  funext a; apply Fin.ext
  have hf := idx_facts t
  match a with
  | ⟨0, _⟩ => show win0_5.index t (0 : Fin 2) * 200 + 1 * p.val = r.val; have := hf.2.2.2.2.2.2.2.2.2.2.1; omega
  | ⟨1, _⟩ => show win0_5.index t (1 : Fin 2) * 128 + 1 * k.val = k.val; have := hf.2.2.2.2.2.2.2.2.2.2.2.1; omega

/-- The whole-array function of the activations output, of the arrays the region finds. -/
abbrev G5 (c : Dev nD) : Mat 10000 128 :=
  first (V c main_arg1) (V c main_arg0) (fun k => V c main_v0 (ix2 (0 : Fin 1) k)) (V c main_arg3) (fun k => V c main_v1 (ix2 (0 : Fin 1) k))

/-- What point t writes back to the activations is band t of the first layer. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold outsAt0
  dsimp only
  rw [out5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t)]
  funext y
  obtain ⟨p, k, rfl⟩ : ∃ (p : Fin 200) (k : Fin 128), y = ix2 p k := ⟨y 0, y 1, eq_ix2 y⟩
  have hlt : 200 * t.val + p.val < 10000 := by have h50 : t.val < 50 := t.isLt; have := p.isLt; omega
  refine (Pay.first_at (iblk0 V c 0 t) (iblk0 V c 1 t) _ (iblk0 V c 2 t) (iblk0 V c 3 t) (iblk0 V c 4 t) p k).trans ?_
  show _ = G5 V c (((cfg0.win 5).blk t).view.emb (ix2 p k))
  rw [out5_place t p k ⟨200 * t.val + p.val, hlt⟩ rfl, feat_read V c t, scale_read V c t, weight_read V c t, bias_read V c t]
  refine congrArg₂ max ?_ rfl
  refine dense_row _ _ (V c main_arg3) (fun k => V c main_v1 (ix2 (0 : Fin 1) k)) p ⟨200 * t.val + p.val, hlt⟩ (fun j => ?_) k
  exact filt_of_band (V c main_arg1) (V c main_arg0) (fun k => V c main_v0 (ix2 (0 : Fin 1) k)) (iblk0 V c 0 t)
    (View.ld (V c main_arg0) (Rect.unit (s := S10000x128) (k0_off1 (grid0.coords t)) S200x128.size (k0_off1_inb (grid0.coords t))))
    p ⟨200 * t.val + p.val, hlt⟩
    (fun i => band_read V c t p i _ rfl) (fun j => own_rows (V c main_arg0) t p j _ rfl) j

/-- What point t writes back to the copy is band t of the operator. -/
theorem flushed6_eq (c : Dev nD) (t : Fin cfg0.N) :
    (dat0 V c).flushed 6 t = ((cfg0.win 6).blk t).view.read (Elt Ideal) (V c main_arg1) := by
  show (cfg0.win 6).cut (grid0.coords t) ((dat0 V c).after 6 t) = _
  rw [after0_6]
  unfold outsAt0
  dsimp only
  rw [out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t)]
  funext y
  show iblk0 V c 0 t y = V c main_arg1 (((cfg0.win 6).blk t).view.emb y)
  show V c main_arg1 (((cfg0.win 0).blk t).view.emb y) = V c main_arg1 (((cfg0.win 6).blk t).view.emb y)
  refine congrArg (V c main_arg1) (funext fun a => Fin.ext ?_)
  have hf := idx_facts t
  match a with
  | ⟨0, _⟩ => show win0_0.index t (0 : Fin 2) * 200 + 1 * (y 0).val = win0_6.index t (0 : Fin 2) * 200 + 1 * (y 0).val; have := hf.1; have := hf.2.2.2.2.2.2.2.2.2.2.2.2.1; omega
  | ⟨1, _⟩ => show win0_0.index t (1 : Fin 2) * 10000 + 1 * (y 1).val = win0_6.index t (1 : Fin 2) * 10000 + 1 * (y 1).val; have := hf.2.1; have := hf.2.2.2.2.2.2.2.2.2.2.2.2.2.1; omega

/-- An index of the activations array is in point t's band iff its row is. -/
theorem mem_blk5 (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v2_0).slice (win0_5.rect t)).set ↔ _
  rw [View.set_slice_whole, Rect.mem_set_unit]
  exact Iff.rfl

theorem mem_blk6 (t : Fin cfg0.N) (i : S10000x10000.Idx) :
    i ∈ ((cfg0.win 6).blk t).view.set ↔ ∀ a : Fin 2, win0_6.index t a * S200x10000.size a ≤ (i a).val ∧ (i a).val < win0_6.index t a * S200x10000.size a + S200x10000.size a := by
  show i ∈ ((View.whole main_v2_1).slice (win0_6.rect t)).set ↔ _
  rw [View.set_slice_whole, Rect.mem_set_unit]
  exact Iff.rfl

/-- Every index of either output array is in the band of the point its row falls in. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  refine ⟨⟨(i 0).val / 200, by show _ < 50; omega⟩, flush0_5 _, ?_⟩
  rw [mem_blk5]
  have hf := idx_facts ⟨(i 0).val / 200, by show _ < 50; omega⟩
  have e6 := hf.2.2.2.2.2.2.2.2.2.2.1
  have e7 := hf.2.2.2.2.2.2.2.2.2.2.2.1
  intro a
  match a with
  | ⟨0, _⟩ => show win0_5.index _ (0 : Fin 2) * 200 ≤ (i 0).val ∧ (i 0).val < win0_5.index _ (0 : Fin 2) * 200 + 200; rw [e6]; show (i 0).val / 200 * 200 ≤ (i 0).val ∧ (i 0).val < (i 0).val / 200 * 200 + 200; omega
  | ⟨1, _⟩ => show win0_5.index _ (1 : Fin 2) * 128 ≤ (i 1).val ∧ (i 1).val < win0_5.index _ (1 : Fin 2) * 128 + 128; rw [e7]; omega

theorem cover6 (i : S10000x10000.Idx) : ∃ t : Fin cfg0.N, (cfg0.win 6).flush t = true ∧ i ∈ ((cfg0.win 6).blk t).view.set := by
  have hi0 : (i 0).val < 10000 := (i 0).isLt
  have hi1 : (i 1).val < 10000 := (i 1).isLt
  refine ⟨⟨(i 0).val / 200, by show _ < 50; omega⟩, flush0_6 _, ?_⟩
  rw [mem_blk6]
  have hf := idx_facts ⟨(i 0).val / 200, by show _ < 50; omega⟩
  have e6 := hf.2.2.2.2.2.2.2.2.2.2.2.2.1
  have e7 := hf.2.2.2.2.2.2.2.2.2.2.2.2.2.1
  intro a
  match a with
  | ⟨0, _⟩ => show win0_6.index _ (0 : Fin 2) * 200 ≤ (i 0).val ∧ (i 0).val < win0_6.index _ (0 : Fin 2) * 200 + 200; rw [e6]; show (i 0).val / 200 * 200 ≤ (i 0).val ∧ (i 0).val < (i 0).val / 200 * 200 + 200; omega
  | ⟨1, _⟩ => show win0_6.index _ (1 : Fin 2) * 10000 ≤ (i 1).val ∧ (i 1).val < win0_6.index _ (1 : Fin 2) * 10000 + 10000; rw [e7]; omega

/-- After the region the activations array is the first layer of the arrays the region found, -/
theorem final5 (c : Dev nD) : (dat0 V c).arrAt 5 cfg0.N = G5 V c :=
  (dat0 V c).arrAt_eq_of_cover 5 (G5 V c) (fun t _ => flushed5_eq V c t) cover5

/-- and the copy is the operator. -/
theorem final6 (c : Dev nD) : (dat0 V c).arrAt 6 cfg0.N = V c main_arg1 :=
  (dat0 V c).arrAt_eq_of_cover 6 (V c main_arg1) (fun t _ => flushed6_eq V c t) cover6

end

end Cert.KernelIdeal.First

end
-- ==== Proof.Mid1.lean ====
/-
  Region 1: a filtered layer, band by band.

  The grid has 25 points; point t holds rows 400 t … 400 t + 399 of the operator (window 0), the whole activation
  matrix (window 1), the one-row scale (window 2), and writes back rows 400 t … 400 t + 399 of the result (window 3).
  The body stores ONE whole block; its entry at local row p is the filtered layer's entry at row 400 t + p. The 25
  bands tile the 10000 rows, so after the region the output array is the filtered layer of the arrays it found.
-/
import proofs.«144061_g8177617732284_cont_9to1_m_958_4_alg».proof.Proof.Pay
import proofs.«144061_g8177617732284_cont_9to1_m_958_4_alg».proof.Proof.Gen.KernelIdeal.Frame

set_option maxRecDepth 16384

noncomputable section

namespace Cert.KernelIdeal.Mid1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Layers

theorem hz : (![0, 0] : Fin 2 → Nat) = fun _ => 0 := funext fun a => by fin_cases a <;> rfl

/-- What the body leaves in the output's staging buffer is its one stored value, of the loaded blocks. -/
theorem out_eq {F : FTy → Type} [FloatOps F] (c : Dev nD) (i : grid1.Coords) (arg1 : Memref sig .tc .vmem S400x10000 .bf16) (harg1 : arg1.IsWhole)
    (arg2 : Memref sig .tc .vmem S10000x128 .f32) (harg2 : arg2.IsWhole) (arg3 : Memref sig .tc .vmem S1x128 .f32) (harg3 : arg3.IsWhole)
    (arg4 : Memref sig .tc .vmem S400x128 .f32) (harg4 : arg4.IsWhole)
    (x0 : Vec F S400x10000 .bf16) (x1 : Vec F S10000x128 .f32) (x2 : Vec F S1x128 .f32) :
    out1_A_3 (F := F) c i arg1 harg1 arg2 harg2 arg3 harg3 arg4 harg4 x0 x1 x2
      = k1_pay1 x0 x1 (View.ld x1 (Rect.unit (s := S10000x128) (k1_off1 i) S400x128.size (k1_off1_inb i))) x2 := by
  unfold out1_A_3
  rw [View.read_writes_eq_canon _ _ _ (cover1_A_3 c i arg1 harg1 arg2 harg2 arg3 harg3 arg4 harg4 x0 x1 x2)]
  unfold kernelRun1_A
  dsimp only
  rw [View.canon_unit_zero hz]
  simp only [View.readAt_eq_ld, harg1.read_unread, harg2.read_unread, harg3.read_unread]
  rw [View.ld_unit_zero (S := S400x10000) hz, View.ld_unit_zero (S := S10000x128) hz, View.ld_unit_zero (S := S1x128) hz]

/-- The printed index maps over the grid: the band windows move with the point, the others stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ ((grid1.coords t) 0).val = t.val :=
  (by decide +kernel : ∀ t : Fin grid1.N, _)

section
variable (V : (c : Dev nD) → (b : Ref sig .tc) → Buf (Elt Ideal) ((c : Thread nD τ).loc b))

/-- The operator's band at point t: local row p is row 400 t + p. -/
theorem band_read (c : Dev nD) (t : Fin cfg1.N) (p : Fin 400) (j : Fin 10000) (r : Fin 10000) (hr : r.val = 400 * t.val + p.val) :
    iblk1 V c 0 t (ix2 p j) = V c main_v2_1 (ix2 r j) := by
  show V c main_v2_1 (((cfg1.win 0).blk t).view.emb (ix2 p j)) = V c main_v2_1 (ix2 r j)
  refine congrArg (V c main_v2_1) (funext fun a => Fin.ext ?_)
  obtain ⟨e0, e1, -⟩ := idx_facts t
  match a with
  | ⟨0, _⟩ => show win1_0.index t (0 : Fin 2) * 400 + 1 * p.val = r.val; omega
  | ⟨1, _⟩ => show win1_0.index t (1 : Fin 2) * 10000 + 1 * j.val = j.val; omega

/-- The activation matrix is staged whole. -/
theorem whole_read (c : Dev nD) (t : Fin cfg1.N) : (iblk1 V c 1 t : S10000x128.Idx → EReal) = V c main_v2_0 := by
  funext y
  show V c main_v2_0 (((cfg1.win 1).blk t).view.emb y) = V c main_v2_0 y
  refine congrArg (V c main_v2_0) (funext fun a => Fin.ext ?_)
  obtain ⟨-, -, e2, e3, -⟩ := idx_facts t
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The one-row scale is staged whole. -/
theorem scale_read (c : Dev nD) (t : Fin cfg1.N) : (iblk1 V c 2 t : S1x128.Idx → EReal) = V c main_v5 := by
  funext y
  show V c main_v5 (((cfg1.win 2).blk t).view.emb y) = V c main_v5 y
  refine congrArg (V c main_v5) (funext fun a => Fin.ext ?_)
  obtain ⟨-, -, -, -, e4, e5, -⟩ := idx_facts t
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The body's own cut of the activation matrix at point t: local row p is row 400 t + p. -/
theorem own_rows (X : Vec Ideal S10000x128 .f32) (t : Fin cfg1.N) (p : Fin 400) (k : Fin 128) (r : Fin 10000) (hr : r.val = 400 * t.val + p.val) :
    View.ld X (Rect.unit (s := S10000x128) (k1_off1 (grid1.coords t)) S400x128.size (k1_off1_inb (grid1.coords t))) (ix2 p k) = X (ix2 r k) := by
  show X ((Rect.unit (s := S10000x128) (k1_off1 (grid1.coords t)) S400x128.size (k1_off1_inb (grid1.coords t))).emb (ix2 p k)) = X (ix2 r k)
  refine congrArg X (funext fun a => Fin.ext ?_)
  have e8 := (idx_facts t).2.2.2.2.2.2.2.2
  match a with
  | ⟨0, _⟩ =>
    show (k1_off1 (grid1.coords t)) 0 + 1 * p.val = r.val
    rw [k1_off1_eq]
    show 400 * ((grid1.coords t) 0).val + 1 * p.val = r.val
    omega
  | ⟨1, _⟩ =>
    show (k1_off1 (grid1.coords t)) 1 + 1 * k.val = k.val
    rw [k1_off1_eq]
    show 0 + 1 * k.val = k.val
    omega

/-- The output band at point t places local (p, k) at (400 t + p, k). -/
theorem out_place (t : Fin cfg1.N) (p : Fin 400) (k : Fin 128) (r : Fin 10000) (hr : r.val = 400 * t.val + p.val) :
    ((cfg1.win 3).blk t).view.emb (ix2 p k) = ix2 r k := by
  funext a; apply Fin.ext
  obtain ⟨-, -, -, -, -, -, e6, e7, -⟩ := idx_facts t
  match a with
  | ⟨0, _⟩ => show win1_3.index t (0 : Fin 2) * 400 + 1 * p.val = r.val; omega
  | ⟨1, _⟩ => show win1_3.index t (1 : Fin 2) * 128 + 1 * k.val = k.val; omega

/-- The whole-array function the region computes, of the arrays it finds. -/
abbrev G (c : Dev nD) : Mat 10000 128 :=
  filtM (V c main_v2_1) (V c main_v2_0) (fun k => V c main_v5 (ix2 (0 : Fin 1) k))

/-- What point t writes back is band t of the filtered layer. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold outsAt1
  rw [out_eq c (grid1.coords t) (ms1_0 t) (hs1_0 t) (ms1_1 t) (hs1_1 t) (ms1_2 t) (hs1_2 t) (ms1_3 t) (hs1_3 t)
    (iblk1 V c 0 t) (iblk1 V c 1 t) (iblk1 V c 2 t)]
  funext y
  obtain ⟨p, k, rfl⟩ : ∃ (p : Fin 400) (k : Fin 128), y = ix2 p k := ⟨y 0, y 1, eq_ix2 y⟩
  have hlt : 400 * t.val + p.val < 10000 := by have h25 : t.val < 25 := t.isLt; have := p.isLt; omega
  refine (Pay.mid1_at (iblk1 V c 0 t) (iblk1 V c 1 t) _ (iblk1 V c 2 t) p k).trans ?_
  show _ = G V c (((cfg1.win 3).blk t).view.emb (ix2 p k))
  rw [out_place t p k ⟨400 * t.val + p.val, hlt⟩ rfl, whole_read V c t, scale_read V c t]
  exact filt_of_band (V c main_v2_1) (V c main_v2_0) (fun k => V c main_v5 (ix2 (0 : Fin 1) k)) (iblk1 V c 0 t)
    (View.ld (V c main_v2_0) (Rect.unit (s := S10000x128) (k1_off1 (grid1.coords t)) S400x128.size (k1_off1_inb (grid1.coords t))))
    p ⟨400 * t.val + p.val, hlt⟩
    (fun i => band_read V c t p i _ rfl) (fun j => own_rows (V c main_v2_0) t p j _ rfl) k

/-- An index of the output array is in point t's band iff its row is. -/
theorem mem_blk (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v6).slice (win1_3.rect t)).set ↔ _
  rw [View.set_slice_whole, Rect.mem_set_unit]
  exact Iff.rfl

/-- Every index of the output array is in the band of the point its row falls in. -/
theorem cover (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  refine ⟨⟨(i 0).val / 400, by show _ < 25; omega⟩, flush1_3 _, ?_⟩
  rw [mem_blk]
  obtain ⟨-, -, -, -, -, -, e6, e7, -⟩ := idx_facts ⟨(i 0).val / 400, by show _ < 25; omega⟩
  intro a
  match a with
  | ⟨0, _⟩ => show win1_3.index _ (0 : Fin 2) * 400 ≤ (i 0).val ∧ (i 0).val < win1_3.index _ (0 : Fin 2) * 400 + 400; rw [e6]; show (i 0).val / 400 * 400 ≤ (i 0).val ∧ (i 0).val < (i 0).val / 400 * 400 + 400; omega
  | ⟨1, _⟩ => show win1_3.index _ (1 : Fin 2) * 128 ≤ (i 1).val ∧ (i 1).val < win1_3.index _ (1 : Fin 2) * 128 + 128; rw [e7]; omega

/-- After the region the output array is the filtered layer of the arrays the region found. -/
theorem final (c : Dev nD) : (dat1 V c).arrAt 3 cfg1.N = G V c :=
  (dat1 V c).arrAt_eq_of_cover 3 (G V c) (fun t _ => flushed_eq V c t) cover

end

end Cert.KernelIdeal.Mid1

end
-- ==== Proof.Mid2.lean ====
/-
  Region 2: a filtered layer, band by band.

  The grid has 25 points; point t holds rows 400 t … 400 t + 399 of the operator (window 0), the whole activation
  matrix (window 1), the one-row scale (window 2), and writes back rows 400 t … 400 t + 399 of the result (window 3).
  The body stores ONE whole block; its entry at local row p is the filtered layer's entry at row 400 t + p. The 25
  bands tile the 10000 rows, so after the region the output array is the filtered layer of the arrays it found.
-/
import proofs.«144061_g8177617732284_cont_9to1_m_958_4_alg».proof.Proof.Pay
import proofs.«144061_g8177617732284_cont_9to1_m_958_4_alg».proof.Proof.Gen.KernelIdeal.Frame

set_option maxRecDepth 16384

noncomputable section

namespace Cert.KernelIdeal.Mid2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Layers

theorem hz : (![0, 0] : Fin 2 → Nat) = fun _ => 0 := funext fun a => by fin_cases a <;> rfl

/-- What the body leaves in the output's staging buffer is its one stored value, of the loaded blocks. -/
theorem out_eq {F : FTy → Type} [FloatOps F] (c : Dev nD) (i : grid2.Coords) (arg1 : Memref sig .tc .vmem S400x10000 .bf16) (harg1 : arg1.IsWhole)
    (arg2 : Memref sig .tc .vmem S10000x128 .f32) (harg2 : arg2.IsWhole) (arg3 : Memref sig .tc .vmem S1x128 .f32) (harg3 : arg3.IsWhole)
    (arg4 : Memref sig .tc .vmem S400x128 .f32) (harg4 : arg4.IsWhole)
    (x0 : Vec F S400x10000 .bf16) (x1 : Vec F S10000x128 .f32) (x2 : Vec F S1x128 .f32) :
    out2_A_3 (F := F) c i arg1 harg1 arg2 harg2 arg3 harg3 arg4 harg4 x0 x1 x2
      = k2_pay1 x0 x1 (View.ld x1 (Rect.unit (s := S10000x128) (k2_off1 i) S400x128.size (k2_off1_inb i))) x2 := by
  unfold out2_A_3
  rw [View.read_writes_eq_canon _ _ _ (cover2_A_3 c i arg1 harg1 arg2 harg2 arg3 harg3 arg4 harg4 x0 x1 x2)]
  unfold kernelRun2_A
  dsimp only
  rw [View.canon_unit_zero hz]
  simp only [View.readAt_eq_ld, harg1.read_unread, harg2.read_unread, harg3.read_unread]
  rw [View.ld_unit_zero (S := S400x10000) hz, View.ld_unit_zero (S := S10000x128) hz, View.ld_unit_zero (S := S1x128) hz]

/-- The printed index maps over the grid: the band windows move with the point, the others stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ ((grid2.coords t) 0).val = t.val :=
  (by decide +kernel : ∀ t : Fin grid2.N, _)

section
variable (V : (c : Dev nD) → (b : Ref sig .tc) → Buf (Elt Ideal) ((c : Thread nD τ).loc b))

/-- The operator's band at point t: local row p is row 400 t + p. -/
theorem band_read (c : Dev nD) (t : Fin cfg2.N) (p : Fin 400) (j : Fin 10000) (r : Fin 10000) (hr : r.val = 400 * t.val + p.val) :
    iblk2 V c 0 t (ix2 p j) = V c main_v2_1 (ix2 r j) := by
  show V c main_v2_1 (((cfg2.win 0).blk t).view.emb (ix2 p j)) = V c main_v2_1 (ix2 r j)
  refine congrArg (V c main_v2_1) (funext fun a => Fin.ext ?_)
  obtain ⟨e0, e1, -⟩ := idx_facts t
  match a with
  | ⟨0, _⟩ => show win2_0.index t (0 : Fin 2) * 400 + 1 * p.val = r.val; omega
  | ⟨1, _⟩ => show win2_0.index t (1 : Fin 2) * 10000 + 1 * j.val = j.val; omega

/-- The activation matrix is staged whole. -/
theorem whole_read (c : Dev nD) (t : Fin cfg2.N) : (iblk2 V c 1 t : S10000x128.Idx → EReal) = V c main_v6 := by
  funext y
  show V c main_v6 (((cfg2.win 1).blk t).view.emb y) = V c main_v6 y
  refine congrArg (V c main_v6) (funext fun a => Fin.ext ?_)
  obtain ⟨-, -, e2, e3, -⟩ := idx_facts t
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- The one-row scale is staged whole. -/
theorem scale_read (c : Dev nD) (t : Fin cfg2.N) : (iblk2 V c 2 t : S1x128.Idx → EReal) = V c main_v9 := by
  funext y
  show V c main_v9 (((cfg2.win 2).blk t).view.emb y) = V c main_v9 y
  refine congrArg (V c main_v9) (funext fun a => Fin.ext ?_)
  obtain ⟨-, -, -, -, e4, e5, -⟩ := idx_facts t
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The body's own cut of the activation matrix at point t: local row p is row 400 t + p. -/
theorem own_rows (X : Vec Ideal S10000x128 .f32) (t : Fin cfg2.N) (p : Fin 400) (k : Fin 128) (r : Fin 10000) (hr : r.val = 400 * t.val + p.val) :
    View.ld X (Rect.unit (s := S10000x128) (k2_off1 (grid2.coords t)) S400x128.size (k2_off1_inb (grid2.coords t))) (ix2 p k) = X (ix2 r k) := by
  show X ((Rect.unit (s := S10000x128) (k2_off1 (grid2.coords t)) S400x128.size (k2_off1_inb (grid2.coords t))).emb (ix2 p k)) = X (ix2 r k)
  refine congrArg X (funext fun a => Fin.ext ?_)
  have e8 := (idx_facts t).2.2.2.2.2.2.2.2
  match a with
  | ⟨0, _⟩ =>
    show (k2_off1 (grid2.coords t)) 0 + 1 * p.val = r.val
    rw [k2_off1_eq]
    show 400 * ((grid2.coords t) 0).val + 1 * p.val = r.val
    omega
  | ⟨1, _⟩ =>
    show (k2_off1 (grid2.coords t)) 1 + 1 * k.val = k.val
    rw [k2_off1_eq]
    show 0 + 1 * k.val = k.val
    omega

/-- The output band at point t places local (p, k) at (400 t + p, k). -/
theorem out_place (t : Fin cfg2.N) (p : Fin 400) (k : Fin 128) (r : Fin 10000) (hr : r.val = 400 * t.val + p.val) :
    ((cfg2.win 3).blk t).view.emb (ix2 p k) = ix2 r k := by
  funext a; apply Fin.ext
  obtain ⟨-, -, -, -, -, -, e6, e7, -⟩ := idx_facts t
  match a with
  | ⟨0, _⟩ => show win2_3.index t (0 : Fin 2) * 400 + 1 * p.val = r.val; omega
  | ⟨1, _⟩ => show win2_3.index t (1 : Fin 2) * 128 + 1 * k.val = k.val; omega

/-- The whole-array function the region computes, of the arrays it finds. -/
abbrev G (c : Dev nD) : Mat 10000 128 :=
  filtM (V c main_v2_1) (V c main_v6) (fun k => V c main_v9 (ix2 (0 : Fin 1) k))

/-- What point t writes back is band t of the filtered layer. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold outsAt2
  rw [out_eq c (grid2.coords t) (ms2_0 t) (hs2_0 t) (ms2_1 t) (hs2_1 t) (ms2_2 t) (hs2_2 t) (ms2_3 t) (hs2_3 t)
    (iblk2 V c 0 t) (iblk2 V c 1 t) (iblk2 V c 2 t)]
  funext y
  obtain ⟨p, k, rfl⟩ : ∃ (p : Fin 400) (k : Fin 128), y = ix2 p k := ⟨y 0, y 1, eq_ix2 y⟩
  have hlt : 400 * t.val + p.val < 10000 := by have h25 : t.val < 25 := t.isLt; have := p.isLt; omega
  refine (Pay.mid2_at (iblk2 V c 0 t) (iblk2 V c 1 t) _ (iblk2 V c 2 t) p k).trans ?_
  show _ = G V c (((cfg2.win 3).blk t).view.emb (ix2 p k))
  rw [out_place t p k ⟨400 * t.val + p.val, hlt⟩ rfl, whole_read V c t, scale_read V c t]
  exact filt_of_band (V c main_v2_1) (V c main_v6) (fun k => V c main_v9 (ix2 (0 : Fin 1) k)) (iblk2 V c 0 t)
    (View.ld (V c main_v6) (Rect.unit (s := S10000x128) (k2_off1 (grid2.coords t)) S400x128.size (k2_off1_inb (grid2.coords t))))
    p ⟨400 * t.val + p.val, hlt⟩
    (fun i => band_read V c t p i _ rfl) (fun j => own_rows (V c main_v6) t p j _ rfl) k

/-- An index of the output array is in point t's band iff its row is. -/
theorem mem_blk (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v10).slice (win2_3.rect t)).set ↔ _
  rw [View.set_slice_whole, Rect.mem_set_unit]
  exact Iff.rfl

/-- Every index of the output array is in the band of the point its row falls in. -/
theorem cover (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  refine ⟨⟨(i 0).val / 400, by show _ < 25; omega⟩, flush2_3 _, ?_⟩
  rw [mem_blk]
  obtain ⟨-, -, -, -, -, -, e6, e7, -⟩ := idx_facts ⟨(i 0).val / 400, by show _ < 25; omega⟩
  intro a
  match a with
  | ⟨0, _⟩ => show win2_3.index _ (0 : Fin 2) * 400 ≤ (i 0).val ∧ (i 0).val < win2_3.index _ (0 : Fin 2) * 400 + 400; rw [e6]; show (i 0).val / 400 * 400 ≤ (i 0).val ∧ (i 0).val < (i 0).val / 400 * 400 + 400; omega
  | ⟨1, _⟩ => show win2_3.index _ (1 : Fin 2) * 128 ≤ (i 1).val ∧ (i 1).val < win2_3.index _ (1 : Fin 2) * 128 + 128; rw [e7]; omega

/-- After the region the output array is the filtered layer of the arrays the region found. -/
theorem final (c : Dev nD) : (dat2 V c).arrAt 3 cfg2.N = G V c :=
  (dat2 V c).arrAt_eq_of_cover 3 (G V c) (fun t _ => flushed_eq V c t) cover

end

end Cert.KernelIdeal.Mid2

end
-- ==== Proof.Last.lean ====
/-
  Region 3: the last layer, band by band.

  The grid has 25 points; point t holds rows 400 t … 400 t + 399 of the operator's copy (window 0), the whole activation
  matrix (window 1), the one-row scale (window 2), the weight matrix (window 3), the one-row bias (window 4), and writes
  back rows 400 t … 400 t + 399 of the result (window 5). The body stores one whole block; its entry at local row p is
  the last layer's entry at row 400 t + p: every step after the dense layer works within a row. The 25 bands tile the
  10000 rows.
-/
import proofs.«144061_g8177617732284_cont_9to1_m_958_4_alg».proof.Proof.Pay
import proofs.«144061_g8177617732284_cont_9to1_m_958_4_alg».proof.Proof.Gen.KernelIdeal.Frame

set_option maxRecDepth 16384

noncomputable section

namespace Cert.KernelIdeal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Layers

theorem hz : (![0, 0] : Fin 2 → Nat) = fun _ => 0 := funext fun a => by fin_cases a <;> rfl

/-- What the body leaves in the output's staging buffer is its one stored value, of the loaded blocks. -/
theorem out_eq {F : FTy → Type} [FloatOps F] (c : Dev nD) (i : grid3.Coords) (arg1 : Memref sig .tc .vmem S400x10000 .bf16) (harg1 : arg1.IsWhole) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S400x64 .f32) (harg6 : arg6.IsWhole)
    (x0 : Vec F S400x10000 .bf16) (x1 : Vec F S10000x128 .f32) (x2 : Vec F S1x128 .f32) (x3 : Vec F S128x64 .f32) (x4 : Vec F S1x64 .f32) :
    out3_A_5 (F := F) c i arg1 harg1 arg2 harg2 arg3 harg3 arg4 harg4 arg5 harg5 arg6 harg6 x0 x1 x2 x3 x4
      = k3_pay1 x0 x1 (View.ld x1 (Rect.unit (s := S10000x128) (k3_off1 i) S400x128.size (k3_off1_inb i))) x2 x3 x4 := by
  unfold out3_A_5
  rw [View.read_writes_eq_canon _ _ _ (cover3_A_5 c i arg1 harg1 arg2 harg2 arg3 harg3 arg4 harg4 arg5 harg5 arg6 harg6 x0 x1 x2 x3 x4)]
  unfold kernelRun3_A
  dsimp only
  rw [View.canon_unit_zero hz]
  simp only [View.readAt_eq_ld, harg1.read_unread, harg2.read_unread, harg3.read_unread, harg4.read_unread, harg5.read_unread,
    View.ld_unit_zero (S := S400x10000) hz, View.ld_unit_zero (S := S10000x128) hz, View.ld_unit_zero (S := S1x128) hz,
    View.ld_unit_zero (S := S128x64) hz, View.ld_unit_zero (S := S1x64) hz]

/-- The printed index maps over the grid: the band windows move with the point, the others stay at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ ((grid3.coords t) 0).val = t.val :=
  (by decide +kernel : ∀ t : Fin grid3.N, _)

section
variable (V : (c : Dev nD) → (b : Ref sig .tc) → Buf (Elt Ideal) ((c : Thread nD τ).loc b))

/-- The operator's band at point t: local row p is row 400 t + p. -/
theorem band_read (c : Dev nD) (t : Fin cfg3.N) (p : Fin 400) (j : Fin 10000) (r : Fin 10000) (hr : r.val = 400 * t.val + p.val) :
    iblk3 V c 0 t (ix2 p j) = V c main_v2_1 (ix2 r j) := by
  show V c main_v2_1 (((cfg3.win 0).blk t).view.emb (ix2 p j)) = V c main_v2_1 (ix2 r j)
  refine congrArg (V c main_v2_1) (funext fun a => Fin.ext ?_)
  obtain ⟨e0, e1, -⟩ := idx_facts t
  match a with
  | ⟨0, _⟩ => show win3_0.index t (0 : Fin 2) * 400 + 1 * p.val = r.val; omega
  | ⟨1, _⟩ => show win3_0.index t (1 : Fin 2) * 10000 + 1 * j.val = j.val; omega

/-- The activation matrix, the scale, the weights and the bias are staged whole. -/
theorem act_read (c : Dev nD) (t : Fin cfg3.N) : (iblk3 V c 1 t : S10000x128.Idx → EReal) = V c main_v10 := by
  funext y
  show V c main_v10 (((cfg3.win 1).blk t).view.emb y) = V c main_v10 y
  refine congrArg (V c main_v10) (funext fun a => Fin.ext ?_)
  have hf := idx_facts t
  match a with
  | ⟨0, _⟩ => show win3_1.index t (0 : Fin 2) * 10000 + 1 * (y 0).val = (y 0).val; have := hf.2.2.1; omega
  | ⟨1, _⟩ => show win3_1.index t (1 : Fin 2) * 128 + 1 * (y 1).val = (y 1).val; have := hf.2.2.2.1; omega

theorem scale_read (c : Dev nD) (t : Fin cfg3.N) : (iblk3 V c 2 t : S1x128.Idx → EReal) = V c main_v11 := by
  funext y
  show V c main_v11 (((cfg3.win 2).blk t).view.emb y) = V c main_v11 y
  refine congrArg (V c main_v11) (funext fun a => Fin.ext ?_)
  have hf := idx_facts t
  match a with
  | ⟨0, _⟩ => show win3_2.index t (0 : Fin 2) * 1 + 1 * (y 0).val = (y 0).val; have := hf.2.2.2.2.1; omega
  | ⟨1, _⟩ => show win3_2.index t (1 : Fin 2) * 128 + 1 * (y 1).val = (y 1).val; have := hf.2.2.2.2.2.1; omega

theorem weight_read (c : Dev nD) (t : Fin cfg3.N) : (iblk3 V c 3 t : S128x64.Idx → EReal) = V c main_arg7 := by
  funext y
  show V c main_arg7 (((cfg3.win 3).blk t).view.emb y) = V c main_arg7 y
  refine congrArg (V c main_arg7) (funext fun a => Fin.ext ?_)
  have hf := idx_facts t
  match a with
  | ⟨0, _⟩ => show win3_3.index t (0 : Fin 2) * 128 + 1 * (y 0).val = (y 0).val; have := hf.2.2.2.2.2.2.1; omega
  | ⟨1, _⟩ => show win3_3.index t (1 : Fin 2) * 64 + 1 * (y 1).val = (y 1).val; have := hf.2.2.2.2.2.2.2.1; omega

theorem bias_read (c : Dev nD) (t : Fin cfg3.N) : (iblk3 V c 4 t : S1x64.Idx → EReal) = V c main_v12 := by
  funext y
  show V c main_v12 (((cfg3.win 4).blk t).view.emb y) = V c main_v12 y
  refine congrArg (V c main_v12) (funext fun a => Fin.ext ?_)
  have hf := idx_facts t
  match a with
  | ⟨0, _⟩ => show win3_4.index t (0 : Fin 2) * 1 + 1 * (y 0).val = (y 0).val; have := hf.2.2.2.2.2.2.2.2.1; omega
  | ⟨1, _⟩ => show win3_4.index t (1 : Fin 2) * 64 + 1 * (y 1).val = (y 1).val; have := hf.2.2.2.2.2.2.2.2.2.1; omega

/-- The body's own cut of the activation matrix at point t: local row p is row 400 t + p. -/
theorem own_rows (X : Vec Ideal S10000x128 .f32) (t : Fin cfg3.N) (p : Fin 400) (k : Fin 128) (r : Fin 10000) (hr : r.val = 400 * t.val + p.val) :
    View.ld X (Rect.unit (s := S10000x128) (k3_off1 (grid3.coords t)) S400x128.size (k3_off1_inb (grid3.coords t))) (ix2 p k) = X (ix2 r k) := by
  show X ((Rect.unit (s := S10000x128) (k3_off1 (grid3.coords t)) S400x128.size (k3_off1_inb (grid3.coords t))).emb (ix2 p k)) = X (ix2 r k)
  refine congrArg X (funext fun a => Fin.ext ?_)
  have e8 := (idx_facts t).2.2.2.2.2.2.2.2.2.2.2.2
  match a with
  | ⟨0, _⟩ =>
    show (k3_off1 (grid3.coords t)) 0 + 1 * p.val = r.val
    rw [k3_off1_eq]
    show 400 * ((grid3.coords t) 0).val + 1 * p.val = r.val
    omega
  | ⟨1, _⟩ =>
    show (k3_off1 (grid3.coords t)) 1 + 1 * k.val = k.val
    rw [k3_off1_eq]
    show 0 + 1 * k.val = k.val
    omega

/-- The output band at point t places local (p, k) at (400 t + p, k). -/
theorem out_place (t : Fin cfg3.N) (p : Fin 400) (k : Fin 64) (r : Fin 10000) (hr : r.val = 400 * t.val + p.val) :
    ((cfg3.win 5).blk t).view.emb (ix2 p k) = ix2 r k := by
  funext a; apply Fin.ext
  have hf := idx_facts t
  match a with
  | ⟨0, _⟩ => show win3_5.index t (0 : Fin 2) * 400 + 1 * p.val = r.val; have := hf.2.2.2.2.2.2.2.2.2.2.1; omega
  | ⟨1, _⟩ => show win3_5.index t (1 : Fin 2) * 64 + 1 * k.val = k.val; have := hf.2.2.2.2.2.2.2.2.2.2.2.1; omega

/-- The whole-array function the region computes, of the arrays it finds. -/
abbrev G (c : Dev nD) : Mat 10000 64 :=
  last (V c main_v2_1) (V c main_v10) (fun k => V c main_v11 (ix2 (0 : Fin 1) k)) (V c main_arg7) (fun k => V c main_v12 (ix2 (0 : Fin 1) k))

/-- What point t writes back is band t of the last layer. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold outsAt3
  rw [out_eq c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t) (iblk3 V c 4 t)]
  funext y
  obtain ⟨p, k, rfl⟩ : ∃ (p : Fin 400) (k : Fin 64), y = ix2 p k := ⟨y 0, y 1, eq_ix2 y⟩
  have hlt : 400 * t.val + p.val < 10000 := by have h25 : t.val < 25 := t.isLt; have := p.isLt; omega
  refine (Pay.last_at (iblk3 V c 0 t) (iblk3 V c 1 t) _ (iblk3 V c 2 t) (iblk3 V c 3 t) (iblk3 V c 4 t) p k).trans ?_
  show _ = G V c (((cfg3.win 5).blk t).view.emb (ix2 p k))
  rw [out_place t p k ⟨400 * t.val + p.val, hlt⟩ rfl, act_read V c t, scale_read V c t, weight_read V c t, bias_read V c t]
  refine logSoftmax_row _ _ p ⟨400 * t.val + p.val, hlt⟩ (fun k' => ?_) k
  refine dense_row _ _ (V c main_arg7) (fun k => V c main_v12 (ix2 (0 : Fin 1) k)) p ⟨400 * t.val + p.val, hlt⟩ (fun j => ?_) k'
  exact filt_of_band (V c main_v2_1) (V c main_v10) (fun k => V c main_v11 (ix2 (0 : Fin 1) k)) (iblk3 V c 0 t)
    (View.ld (V c main_v10) (Rect.unit (s := S10000x128) (k3_off1 (grid3.coords t)) S400x128.size (k3_off1_inb (grid3.coords t))))
    p ⟨400 * t.val + p.val, hlt⟩
    (fun i => band_read V c t p i _ rfl) (fun j => own_rows (V c main_v10) t p j _ rfl) j

/-- An index of the output array is in point t's band iff its row is. -/
theorem mem_blk (t : Fin cfg3.N) (i : S10000x64.Idx) :
    i ∈ ((cfg3.win 5).blk t).view.set ↔ ∀ a : Fin 2, win3_5.index t a * S400x64.size a ≤ (i a).val ∧ (i a).val < win3_5.index t a * S400x64.size a + S400x64.size a := by
  show i ∈ ((View.whole main_v13).slice (win3_5.rect t)).set ↔ _
  rw [View.set_slice_whole, Rect.mem_set_unit]
  exact Iff.rfl

/-- Every index of the output array is in the band of the point its row falls in. -/
theorem cover (i : S10000x64.Idx) : ∃ t : Fin cfg3.N, (cfg3.win 5).flush t = true ∧ i ∈ ((cfg3.win 5).blk t).view.set := by
  have hi0 : (i 0).val < 10000 := (i 0).isLt
  have hi1 : (i 1).val < 64 := (i 1).isLt
  refine ⟨⟨(i 0).val / 400, by show _ < 25; omega⟩, flush3_5 _, ?_⟩
  rw [mem_blk]
  have hf := idx_facts ⟨(i 0).val / 400, by show _ < 25; omega⟩
  have e6 := hf.2.2.2.2.2.2.2.2.2.2.1
  have e7 := hf.2.2.2.2.2.2.2.2.2.2.2.1
  intro a
  match a with
  | ⟨0, _⟩ => show win3_5.index _ (0 : Fin 2) * 400 ≤ (i 0).val ∧ (i 0).val < win3_5.index _ (0 : Fin 2) * 400 + 400; rw [e6]; show (i 0).val / 400 * 400 ≤ (i 0).val ∧ (i 0).val < (i 0).val / 400 * 400 + 400; omega
  | ⟨1, _⟩ => show win3_5.index _ (1 : Fin 2) * 64 ≤ (i 1).val ∧ (i 1).val < win3_5.index _ (1 : Fin 2) * 64 + 64; rw [e7]; omega

/-- After the region the output array is the last layer of the arrays the region found. -/
theorem final (c : Dev nD) : (dat3 V c).arrAt 5 cfg3.N = G V c :=
  (dat3 V c).arrAt_eq_of_cover 5 (G V c) (fun t _ => flushed_eq V c t) cover

end

end Cert.KernelIdeal.Last

end
-- ==== Proof.KernelRun.lean ====
/-
  The idealized kernel's run with its result named.

  The program is four grid regions among short stretches of host reshapes and slices. Its run is the launch of those
  eight segments in order, each entered from the buffer contents the previous one left; at the end every unscoped
  buffer holds the last boundary's contents. Read at the result buffer this says what the program returns: the
  contents the fourth region's write-backs leave in its output array. The argument arrays end as launched.
-/
import proofs.«144061_g8177617732284_cont_9to1_m_958_4_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the nine argument arrays as launched. -/
theorem run_named : θ_run defs (onTc (τ := τ) (main (F := F))) ⟨m, fun _ => 0, ρ⟩ (fun r => ∀ c : Dev nD,
      r.2.mem ((c.tc : Thread nD τ).loc main_v13) = W8 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v13 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Named

end
-- ==== Proof.Chain.lean ====
/-
  What the idealized kernel returns, of its launch arguments.

  The result buffer ends at what the fourth region's write-backs leave. Each region's output array is its layer of the
  arrays the region found (the four region modules); between regions the host only reshapes a parameter vector into a
  row, or cuts a row out of the 2 × 128 array of middle scales; an argument buffer is written by nothing and holds its
  launch contents at every boundary; the operator's copy, made by the first region, is the operator. Composing these
  from the last region back to the launch, the result is the network of the nine arguments.
-/
import proofs.«144061_g8177617732284_cont_9to1_m_958_4_alg».proof.Proof.First
import proofs.«144061_g8177617732284_cont_9to1_m_958_4_alg».proof.Proof.Mid1
import proofs.«144061_g8177617732284_cont_9to1_m_958_4_alg».proof.Proof.Mid2
import proofs.«144061_g8177617732284_cont_9to1_m_958_4_alg».proof.Proof.Last
import proofs.«144061_g8177617732284_cont_9to1_m_958_4_alg».proof.Proof.KernelRun
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Layers

/-- Each layer is a function of its operands: equal operands, entry by entry for the parameter vectors, give equal layers. -/
theorem first_congr {n d p : ℕ} {L L' : Mat n n} {x x' : Mat n d} {σ σ' : Fin d → EReal} {W W' : Mat d p} {b b' : Fin p → EReal}
    (hL : L = L') (hx : x = x') (hσ : ∀ k, σ k = σ' k) (hW : W = W') (hb : ∀ k, b k = b' k) : first L x σ W b = first L' x' σ' W' b' := by
  obtain rfl := hL; obtain rfl := hx; obtain rfl := hW; obtain rfl := funext hσ; obtain rfl := funext hb; rfl

theorem filtM_congr {n d : ℕ} {L L' : Mat n n} {h h' : Mat n d} {σ σ' : Fin d → EReal}
    (hL : L = L') (hh : h = h') (hσ : ∀ k, σ k = σ' k) : filtM L h σ = filtM L' h' σ' := by
  obtain rfl := hL; obtain rfl := hh; obtain rfl := funext hσ; rfl

theorem last_congr {n d p : ℕ} {L L' : Mat n n} {h h' : Mat n d} {σ σ' : Fin d → EReal} {W W' : Mat d p} {b b' : Fin p → EReal}
    (hL : L = L') (hh : h = h') (hσ : ∀ k, σ k = σ' k) (hW : W = W') (hb : ∀ k, b k = b' k) : last L h σ W b = last L' h' σ' W' b' := by
  obtain rfl := hL; obtain rfl := hh; obtain rfl := hW; obtain rfl := funext hσ; obtain rfl := funext hb; rfl

variable (m : (ℓ : Loc nD τ sig) → Buf (Elt Ideal) ℓ) (ρ : Dev nD → PrngReg)

/-- A stretch of host operations leaves a buffer it does not write as it was. -/
macro "host_keeps" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.reshape_writes, Finset.mem_singleton]
  repeat' apply And.intro
  all_goals exact StableHlo.devRef_ne_of_ne (by decide)))

/-! ## The arguments at the boundaries where a region or a host stretch reads them -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by host_keeps hostOps0
    _ = m ((c : Thread nD τ).loc main_arg1) := rfl
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps hostOps0
    _ = m ((c : Thread nD τ).loc main_arg2) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keeps hostOps0
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keeps hostOps2
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keeps hostOps2
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-! ## Region 0's entry and exit -/

/-- The first layer of the launch arguments. -/
abbrev H1 (c : Dev nD) : Mat 10000 128 :=
  first (m ((c : Thread nD τ).loc main_arg1)) (m ((c : Thread nD τ).loc main_arg0)) (fun k => m ((c : Thread nD τ).loc main_arg2) (ix1 k))
    (m ((c : Thread nD τ).loc main_arg3)) (fun k => m ((c : Thread nD τ).loc main_arg4) (ix1 k))

theorem V1_scale (c : Dev nD) (k : Fin 128) : V1 m ρ c main_v0 (ix2 (0 : Fin 1) k) = m ((c : Thread nD τ).loc main_arg2) (ix1 k) := by
  have e : V1 m ρ c main_v0 = shapeCast S1x128 (W0 m ρ c (Proc.devRef .tc main_arg2)) shapeCasts_S128_S1x128 := by
    show StableHlo.after hostOps0 (W0 m ρ c) (Proc.devRef .tc main_v0) = _
    after_results
    rfl
  rw [e, shapeCast_a_1a_apply]

theorem V1_bias (c : Dev nD) (k : Fin 128) : V1 m ρ c main_v1 (ix2 (0 : Fin 1) k) = m ((c : Thread nD τ).loc main_arg4) (ix1 k) := by
  have e : V1 m ρ c main_v1 = shapeCast S1x128 (W0 m ρ c (Proc.devRef .tc main_arg4)) shapeCasts_S128_S1x128 := by
    show StableHlo.after hostOps0 (W0 m ρ c) (Proc.devRef .tc main_v1) = _
    after_results
    rfl
  rw [e, shapeCast_a_1a_apply]

/-- After region 0 the activations array holds the first layer of the arguments, -/
theorem W2_act (c : Dev nD) : W2 m ρ c (Proc.devRef .tc main_v2_0) = H1 m c := by
  refine (W2_arr m ρ c 5).trans ((First.final5 (V1 m ρ) c).trans ?_)
  exact first_congr (W1_main_arg1 m ρ c) (W1_main_arg0 m ρ c) (V1_scale m ρ c) (W1_main_arg3 m ρ c) (V1_bias m ρ c)

/-- and the operator's copy the operator. -/
theorem W2_op (c : Dev nD) : W2 m ρ c (Proc.devRef .tc main_v2_1) = m ((c : Thread nD τ).loc main_arg1) :=
  (W2_arr m ρ c 6).trans ((First.final6 (V1 m ρ) c).trans (W1_main_arg1 m ρ c))

/-! ## Region 1 -/

abbrev H2 (c : Dev nD) : Mat 10000 128 :=
  filtM (m ((c : Thread nD τ).loc main_arg1)) (H1 m c) (fun k => m ((c : Thread nD τ).loc main_arg5) (ix2 (0 : Fin 2) k))

theorem V3_op (c : Dev nD) : V3 m ρ c main_v2_1 = m ((c : Thread nD τ).loc main_arg1) :=
  (show W3 m ρ c (Proc.devRef .tc main_v2_1) = W2 m ρ c (Proc.devRef .tc main_v2_1) by host_keeps hostOps1).trans (W2_op m ρ c)

theorem V3_act (c : Dev nD) : V3 m ρ c main_v2_0 = H1 m c :=
  (show W3 m ρ c (Proc.devRef .tc main_v2_0) = W2 m ρ c (Proc.devRef .tc main_v2_0) by host_keeps hostOps1).trans (W2_act m ρ c)

theorem V3_scale (c : Dev nD) (k : Fin 128) : V3 m ρ c main_v5 (ix2 (0 : Fin 1) k) = m ((c : Thread nD τ).loc main_arg5) (ix2 (0 : Fin 2) k) := by
  have e : V3 m ρ c main_v5 = shapeCast S1x128 (shapeCast S128 (extractStridedSlice S1x128 ![0, 0] (W2 m ρ c (Proc.devRef .tc main_arg5)) slices_S2x128_S1x128_0_0)
      shapeCasts_S1x128_S128) shapeCasts_S128_S1x128 := by
    show StableHlo.after hostOps1 (W2 m ρ c) (Proc.devRef .tc main_v5) = _
    after_results
    rfl
  rw [e, shapeCast_a_1a_apply, shapeCast_1a_a_apply, slice2_axis0_apply 0 _ _ (0 : Fin 1) k (0 : Fin 2) rfl, W2_main_arg5]

theorem W4_act (c : Dev nD) : W4 m ρ c (Proc.devRef .tc main_v6) = H2 m c := by
  refine (W4_arr m ρ c 3).trans ((Mid1.final (V3 m ρ) c).trans ?_)
  exact filtM_congr (V3_op m ρ c) (V3_act m ρ c) (V3_scale m ρ c)

theorem W4_op (c : Dev nD) : W4 m ρ c (Proc.devRef .tc main_v2_1) = m ((c : Thread nD τ).loc main_arg1) :=
  (W4_arr m ρ c 0).trans ((((dat1 (V3 m ρ) c).arrAt_in 0 rfl _).trans (A_eq1 (V3 m ρ) c 0)).trans (V3_op m ρ c))

/-! ## Region 2 -/

abbrev H3 (c : Dev nD) : Mat 10000 128 :=
  filtM (m ((c : Thread nD τ).loc main_arg1)) (H2 m c) (fun k => m ((c : Thread nD τ).loc main_arg5) (ix2 (1 : Fin 2) k))

theorem V5_op (c : Dev nD) : V5 m ρ c main_v2_1 = m ((c : Thread nD τ).loc main_arg1) :=
  (show W5 m ρ c (Proc.devRef .tc main_v2_1) = W4 m ρ c (Proc.devRef .tc main_v2_1) by host_keeps hostOps2).trans (W4_op m ρ c)

theorem V5_act (c : Dev nD) : V5 m ρ c main_v6 = H2 m c :=
  (show W5 m ρ c (Proc.devRef .tc main_v6) = W4 m ρ c (Proc.devRef .tc main_v6) by host_keeps hostOps2).trans (W4_act m ρ c)

theorem V5_scale (c : Dev nD) (k : Fin 128) : V5 m ρ c main_v9 (ix2 (0 : Fin 1) k) = m ((c : Thread nD τ).loc main_arg5) (ix2 (1 : Fin 2) k) := by
  have e : V5 m ρ c main_v9 = shapeCast S1x128 (shapeCast S128 (extractStridedSlice S1x128 ![1, 0] (W4 m ρ c (Proc.devRef .tc main_arg5)) slices_S2x128_S1x128_1_0)
      shapeCasts_S1x128_S128) shapeCasts_S128_S1x128 := by
    show StableHlo.after hostOps2 (W4 m ρ c) (Proc.devRef .tc main_v9) = _
    after_results
    rfl
  rw [e, shapeCast_a_1a_apply, shapeCast_1a_a_apply, slice2_axis0_apply 1 _ _ (0 : Fin 1) k (1 : Fin 2) rfl, W4_main_arg5]

theorem W6_act (c : Dev nD) : W6 m ρ c (Proc.devRef .tc main_v10) = H3 m c := by
  refine (W6_arr m ρ c 3).trans ((Mid2.final (V5 m ρ) c).trans ?_)
  exact filtM_congr (V5_op m ρ c) (V5_act m ρ c) (V5_scale m ρ c)

theorem W6_op (c : Dev nD) : W6 m ρ c (Proc.devRef .tc main_v2_1) = m ((c : Thread nD τ).loc main_arg1) :=
  (W6_arr m ρ c 0).trans ((((dat2 (V5 m ρ) c).arrAt_in 0 rfl _).trans (A_eq2 (V5 m ρ) c 0)).trans (V5_op m ρ c))

/-! ## Region 3 and the result -/

theorem V7_op (c : Dev nD) : V7 m ρ c main_v2_1 = m ((c : Thread nD τ).loc main_arg1) :=
  (show W7 m ρ c (Proc.devRef .tc main_v2_1) = W6 m ρ c (Proc.devRef .tc main_v2_1) by host_keeps hostOps3).trans (W6_op m ρ c)

theorem V7_act (c : Dev nD) : V7 m ρ c main_v10 = H3 m c :=
  (show W7 m ρ c (Proc.devRef .tc main_v10) = W6 m ρ c (Proc.devRef .tc main_v10) by host_keeps hostOps3).trans (W6_act m ρ c)

theorem V7_weight (c : Dev nD) : V7 m ρ c main_arg7 = m ((c : Thread nD τ).loc main_arg7) :=
  (show W7 m ρ c (Proc.devRef .tc main_arg7) = W6 m ρ c (Proc.devRef .tc main_arg7) by host_keeps hostOps3).trans (W6_main_arg7 m ρ c)

theorem V7_scale (c : Dev nD) (k : Fin 128) : V7 m ρ c main_v11 (ix2 (0 : Fin 1) k) = m ((c : Thread nD τ).loc main_arg6) (ix1 k) := by
  have e : V7 m ρ c main_v11 = shapeCast S1x128 (W6 m ρ c (Proc.devRef .tc main_arg6)) shapeCasts_S128_S1x128 := by
    show StableHlo.after hostOps3 (W6 m ρ c) (Proc.devRef .tc main_v11) = _
    after_results
    rfl
  rw [e, shapeCast_a_1a_apply, W6_main_arg6]

theorem V7_bias (c : Dev nD) (k : Fin 64) : V7 m ρ c main_v12 (ix2 (0 : Fin 1) k) = m ((c : Thread nD τ).loc main_arg8) (ix1 k) := by
  have e : V7 m ρ c main_v12 = shapeCast S1x64 (W6 m ρ c (Proc.devRef .tc main_arg8)) shapeCasts_S64_S1x64 := by
    show StableHlo.after hostOps3 (W6 m ρ c) (Proc.devRef .tc main_v12) = _
    after_results
    rfl
  rw [e, shapeCast_a_1a_apply, W6_main_arg8]

/-- THE RESULT: the last boundary's contents at the result buffer are the network of the launch arguments. -/
theorem result (c : Dev nD) : W8 m ρ c (Proc.devRef .tc main_v13)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W8_arr m ρ c 5).trans ((Last.final (V7 m ρ) c).trans ?_)
  exact last_congr (V7_op m ρ c) (V7_act m ρ c) (V7_scale m ρ c) (V7_weight m ρ c) (V7_bias m ρ c)

end Cert.KernelIdeal.Chain

end
-- ==== Proof.RefValue.lean ====
/-
  The reference's result is the network of its arguments.

  The host program is the same four layers written with general products, broadcasts of the parameter vectors, and a
  row reduction for each of the maximum and the sum. Its general product of two matrices is the plain sum over the
  contraction; a parameter vector spread over the rows is read at its column; the two middle scales are rows 0 and 1 of
  one 2 × 128 array, cut out and flattened; the maximum with the broadcast zero is the first layer's; the row maximum is
  folded from minus infinity and then once more compared with minus infinity, which changes nothing; the host's row sum
  starts from the literal zero, which adds nothing. Stage by stage this is the network's formula.
-/
import proofs.«144061_g8177617732284_cont_9to1_m_958_4_alg».proof.Proof.Rows
import proofs.«144061_g8177617732284_cont_9to1_m_958_4_alg».proof.Proof.LibDotRead
import proofs.«144061_g8177617732284_cont_9to1_m_958_4_alg».proof.Proof.LibLayoutRead
import proofs.«144061_g8177617732284_cont_9to1_m_958_4_alg».proof.Proof.RefRead
import Idealize.ShloMosaic.Lib.ValueLayout

noncomputable section

namespace Cert.ReferenceIdeal.Bridge

open Idealize.ShloMosaic Idealize.ShloMosaic.ValueIdx Cert.ReferenceIdeal Cert.ReferenceIdeal.Gen Cert.ReferenceIdeal.ReadP Cert.Layers

/-- The record `dot_S10000x10000_S10000x128_S10000x128_1_0_0_1_n_n` is a plain product. -/
theorem plain_prop : Cert.DotRead.Plain dot_S10000x10000_S10000x128_S10000x128_1_0_0_1_n_n where
  rank := rfl
  size := rfl
  lhs0 := fun i q => by
    unfold DotDims.lhsIdx
    rw [dif_neg (show ¬(0 : Fin S10000x10000.rank) ∈ dot_S10000x10000_S10000x128_S10000x128_1_0_0_1_n_n.lhsBatch by decide), dif_pos (show (0 : Fin S10000x10000.rank) ∈ dot_S10000x10000_S10000x128_S10000x128_1_0_0_1_n_n.lhsNonContracting by decide)]
    rfl
  lhs1 := fun i q => dot_S10000x10000_S10000x128_S10000x128_1_0_0_1_n_n.lhsIdx_val_of_single rfl i q
  rhs0 := fun i q => dot_S10000x10000_S10000x128_S10000x128_1_0_0_1_n_n.rhsIdx_val_of_single rfl i q
  rhs1 := fun i q => by
    unfold DotDims.rhsIdx
    rw [dif_neg (show ¬(1 : Fin S10000x128.rank) ∈ dot_S10000x10000_S10000x128_S10000x128_1_0_0_1_n_n.rhsBatch by decide), dif_pos (show (1 : Fin S10000x128.rank) ∈ dot_S10000x10000_S10000x128_S10000x128_1_0_0_1_n_n.rhsNonContracting by decide)]
    rfl

/-- The record `dot_S10000x128_S128x128_S10000x128_1_0_0_1_n_n` is a plain product. -/
theorem plain_dense1 : Cert.DotRead.Plain dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- The record `dot_S10000x128_S128x64_S10000x64_1_0_0_1_n_n` is a plain product. -/
theorem plain_dense2 : Cert.DotRead.Plain dot_S10000x128_S128x64_S10000x64_1_0_0_1_n_n where
  rank := rfl
  size := rfl
  lhs0 := fun i q => by
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  lhs1 := fun i q => dot_S10000x128_S128x64_S10000x64_1_0_0_1_n_n.lhsIdx_val_of_single rfl i q
  rhs0 := fun i q => dot_S10000x128_S128x64_S10000x64_1_0_0_1_n_n.rhsIdx_val_of_single rfl i q
  rhs1 := fun i q => by
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- Entry (r, k) of the host's general product of two matrices (one contracted axis, no batch axis) is the plain sum. -/
theorem host_dot {m n p : ℕ} (d : DotDims ⟨2, ![m, n]⟩ ⟨2, ![n, p]⟩ ⟨2, ![m, p]⟩) (hd : Cert.DotRead.Plain d)
    (prec : Option ContractPrecision) (lhs : FVec Ideal ⟨2, ![m, n]⟩ .f32) (rhs : FVec Ideal ⟨2, ![n, p]⟩ .f32) (r : Fin m) (k : Fin p) :
    Host.dotGeneral d prec lhs rhs (ix2 r k) = ∑ j : Fin n, lhs (ix2 r j) * rhs (ix2 j k) := by
  simp only [Host.dotGeneral]
  rw [Ideal.dotGeneral_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

/-- The host's filtered layer, its scale a vector spread over the rows. -/
theorem host_filt {n q : ℕ} (d : DotDims ⟨2, ![n, n]⟩ ⟨2, ![n, q]⟩ ⟨2, ![n, q]⟩) (hd : Cert.DotRead.Plain d)
    (L : FVec Ideal ⟨2, ![n, n]⟩ .f32) (h : FVec Ideal ⟨2, ![n, q]⟩ .f32) (sg : FVec Ideal ⟨1, ![q]⟩ .f32)
    (h1 : (⟨1, ![q]⟩ : Shape).BroadcastsInDim ⟨2, ![1, q]⟩ ![1]) (h2 : (⟨2, ![1, q]⟩ : Shape).BroadcastsInDim ⟨2, ![n, q]⟩ ![0, 1]) :
    subf h (mulf (Host.dotGeneral d none L h) (broadcastInDim ⟨2, ![n, q]⟩ ![0, 1] h2 (broadcastInDim ⟨2, ![1, q]⟩ ![1] h1 sg)))
      = filtM L h (fun k => sg (ix1 k)) := by
  funext i
  obtain ⟨r, k, rfl⟩ : ∃ (r : Fin n) (k : Fin q), i = ix2 r k := ⟨i 0, i 1, eq_ix2 i⟩
  rw [subf_apply, mulf_apply, host_dot d hd, Cert.LayoutRead.bid_rows, Cert.LayoutRead.bid_row]
  rfl

/-- The host's dense layer at an entry. -/
theorem host_dense {n a q : ℕ} (d : DotDims ⟨2, ![n, a]⟩ ⟨2, ![a, q]⟩ ⟨2, ![n, q]⟩) (hd : Cert.DotRead.Plain d)
    (e : FVec Ideal ⟨2, ![n, a]⟩ .f32) (W : FVec Ideal ⟨2, ![a, q]⟩ .f32) (b : FVec Ideal ⟨1, ![q]⟩ .f32)
    (h1 : (⟨1, ![q]⟩ : Shape).BroadcastsInDim ⟨2, ![1, q]⟩ ![1]) (h2 : (⟨2, ![1, q]⟩ : Shape).BroadcastsInDim ⟨2, ![n, q]⟩ ![0, 1])
    (r : Fin n) (k : Fin q) :
    addf (Host.dotGeneral d none e W) (broadcastInDim ⟨2, ![n, q]⟩ ![0, 1] h2 (broadcastInDim ⟨2, ![1, q]⟩ ![1] h1 b)) (ix2 r k)
      = dense (fun r j => e (ix2 r j)) W (fun k => b (ix1 k)) r k := by
  rw [addf_apply, host_dot d hd, Cert.LayoutRead.bid_rows, Cert.LayoutRead.bid_row]
  rfl

/-- The host's row-wise logarithm of the softmax. -/
theorem host_logSoftmax {n q : ℕ} (z : FVec Ideal ⟨2, ![n, q]⟩ .f32)
    (hrt : (⟨2, ![n, q]⟩ : Shape).ReducesTo [1] ⟨1, ![n]⟩) (hr : (⟨2, ![n, q]⟩ : Shape).Reduces [1] ⟨1, ![n]⟩)
    (hu : 0 < (⟨0, ![]⟩ : Shape).numel)
    (hs : (⟨0, ![]⟩ : Shape).BroadcastsInDim ⟨1, ![n]⟩ ![])
    (hc : (⟨1, ![n]⟩ : Shape).BroadcastsInDim ⟨2, ![n, 1]⟩ ![0]) (hb : (⟨2, ![n, 1]⟩ : Shape).BroadcastsInDim ⟨2, ![n, q]⟩ ![0, 1])
    (r : Fin n) (k : Fin q) :
    subf (subf z (broadcastInDim ⟨2, ![n, q]⟩ ![0, 1] hb (broadcastInDim ⟨2, ![n, 1]⟩ ![0] hc
          (maximumf (broadcastInDim ⟨1, ![n]⟩ ![] hs (constant (F := Ideal) ⟨0, ![]⟩ .f32 0xFF800000#32))
            (Host.reduce FloatOps.maximumf z (constant (F := Ideal) ⟨0, ![]⟩ .f32 0xFF800000#32) hrt hu)))))
        (broadcastInDim ⟨2, ![n, q]⟩ ![0, 1] hb (Host.log (broadcastInDim ⟨2, ![n, 1]⟩ ![0] hc
          (Host.reduceAdd (Host.exp (subf z (broadcastInDim ⟨2, ![n, q]⟩ ![0, 1] hb (broadcastInDim ⟨2, ![n, 1]⟩ ![0] hc
            (maximumf (broadcastInDim ⟨1, ![n]⟩ ![] hs (constant (F := Ideal) ⟨0, ![]⟩ .f32 0xFF800000#32))
              (Host.reduce FloatOps.maximumf z (constant (F := Ideal) ⟨0, ![]⟩ .f32 0xFF800000#32) hrt hu))))))
            (constant (F := Ideal) ⟨0, ![]⟩ .f32 0x00000000#32) hrt hu)))) (ix2 r k)
      = logSoftmax (fun r k => z (ix2 r k)) (ix2 r k) := by
  have hmax : ∀ r : Fin n,
      maximumf (broadcastInDim ⟨1, ![n]⟩ ![] hs (constant (F := Ideal) ⟨0, ![]⟩ .f32 0xFF800000#32))
        (Host.reduce FloatOps.maximumf z (constant (F := Ideal) ⟨0, ![]⟩ .f32 0xFF800000#32) hrt hu) (ix1 r)
        = rowMax (fun r k => z (ix2 r k)) r := fun r => by
    rw [maximumf_apply, Cert.LayoutRead.bcast_scalar, Host.reduce_eq_fold_single FloatOps.maximumf z _ hrt hr hu (ix1 r)]
    refine (max_fold_self _ (Ideal.ofBits .f32 0xFF800000#32) _).trans ?_
    exact Finset.fold_congr fun k' _ => congrArg z (funext fun ax => by
      match ax with
      | ⟨0, _⟩ => rfl
      | ⟨1, _⟩ => rfl)
  have hzs : ∀ (r : Fin n) (k : Fin q),
      subf z (broadcastInDim ⟨2, ![n, q]⟩ ![0, 1] hb (broadcastInDim ⟨2, ![n, 1]⟩ ![0] hc
          (maximumf (broadcastInDim ⟨1, ![n]⟩ ![] hs (constant (F := Ideal) ⟨0, ![]⟩ .f32 0xFF800000#32))
            (Host.reduce FloatOps.maximumf z (constant (F := Ideal) ⟨0, ![]⟩ .f32 0xFF800000#32) hrt hu)))) (ix2 r k)
        = z (ix2 r k) - rowMax (fun r k => z (ix2 r k)) r := fun r k => by
    rw [subf_apply, Cert.LayoutRead.bid_cols, Cert.LayoutRead.bid_col, hmax]
  rw [subf_apply, hzs, Cert.LayoutRead.bid_cols]
  unfold Host.log
  rw [Cert.LayoutRead.bid_col, Cert.LayoutRead.hostsum_row _ _ hrt hr hu]
  show _ - Ideal.log (Ideal.ofBits .f32 0x00000000#32 + ∑ k' : Fin q, Ideal.exp (subf z _ (ix2 r k'))) = _
  rw [Ideal.ofBits_zero_f32, zero_add]
  simp only [hzs]
  rfl

/-! ## The stages of the printed reference -/

/-- The first layer. -/
theorem stage_first (x0 : (⟨S10000x128, .f32⟩ : BufTy).Contents (Elt Ideal)) (x1 : (⟨S10000x10000, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) :
    val_main_v9 (F := Ideal) x0 x1 x2 x3 x4 = first x1 x0 (fun k => x2 (ix1 k)) x3 (fun k => x4 (ix1 k)) := by
  funext i
  obtain ⟨r, k, rfl⟩ : ∃ (r : Fin 10000) (k : Fin 128), i = ix2 r k := ⟨i 0, i 1, eq_ix2 i⟩
  unfold val_main_v9 val_main_call0_v0 val_main_call0_cst val_main_v8 val_main_v7 val_main_v6 val_main_v5
  rw [maximumf_apply, Cert.LayoutRead.bcast_scalar, host_dense _ plain_dense1]
  refine congrArg₂ max ?_ rfl
  refine dense_row _ _ _ _ r r (fun j => ?_) k
  unfold val_main_v4 val_main_v3 val_main_v2 val_main_v1 val_main_v0
  exact congrFun (host_filt _ plain_prop x1 x0 x2 _ _) (ix2 r j)

/-- The scale of a middle layer: row o of the 2 × 128 array, cut out and flattened. -/
theorem scale_row (x5 : (⟨S2x128, .f32⟩ : BufTy).Contents (Elt Ideal)) (o : ℕ) (ro : Fin 2) (hro : ro.val = o)
    (hsl : S2x128.Slices ![o, 0] S1x128) (hsc : S1x128.ShapeCasts S128) (k : Fin 128) :
    shapeCast S128 (extractStridedSlice S1x128 ![o, 0] x5 hsl) hsc (ix1 k) = x5 (ix2 ro k) := by
  rw [shapeCast_1a_a_apply, slice2_axis0_apply o x5 hsl (0 : Fin 1) k ro (by rw [hro]; rfl)]

/-- The second layer. -/
theorem stage_mid1 (x0 : (⟨S10000x128, .f32⟩ : BufTy).Contents (Elt Ideal)) (x1 : (⟨S10000x10000, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) :
    val_main_v16 (F := Ideal) x0 x1 x2 x3 x4 x5 = filtM x1 (val_main_v9 (F := Ideal) x0 x1 x2 x3 x4) (fun k => x5 (ix2 (0 : Fin 2) k)) := by
  unfold val_main_v16 val_main_v15 val_main_v14 val_main_v13 val_main_v12
  rw [host_filt _ plain_prop]
  refine congrArg (filtM x1 _) (funext fun k => ?_)
  unfold val_main_v11 val_main_v10
  exact scale_row x5 0 0 rfl _ _ k

/-- The third layer. -/
theorem stage_mid2 (x0 : (⟨S10000x128, .f32⟩ : BufTy).Contents (Elt Ideal)) (x1 : (⟨S10000x10000, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) :
    val_main_v23 (F := Ideal) x0 x1 x2 x3 x4 x5 = filtM x1 (val_main_v16 (F := Ideal) x0 x1 x2 x3 x4 x5) (fun k => x5 (ix2 (1 : Fin 2) k)) := by
  unfold val_main_v23 val_main_v22 val_main_v21 val_main_v20 val_main_v19
  rw [host_filt _ plain_prop]
  refine congrArg (filtM x1 _) (funext fun k => ?_)
  unfold val_main_v18 val_main_v17
  exact scale_row x5 1 1 rfl _ _ k

/-- The last layer. -/
theorem stage_last (x0 : (⟨S10000x128, .f32⟩ : BufTy).Contents (Elt Ideal)) (x1 : (⟨S10000x10000, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) :
    val_main_v33 (F := Ideal) x0 x1 x2 x3 x4 x5 x6 x7 x8
      = last x1 (val_main_v23 (F := Ideal) x0 x1 x2 x3 x4 x5) (fun k => x6 (ix1 k)) x7 (fun k => x8 (ix1 k)) := by
  funext i
  obtain ⟨r, k, rfl⟩ : ∃ (r : Fin 10000) (k : Fin 64), i = ix2 r k := ⟨i 0, i 1, eq_ix2 i⟩
  unfold val_main_v33 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0 val_main_call1_cst
  refine (host_logSoftmax (val_main_v32 (F := Ideal) x0 x1 x2 x3 x4 x5 x6 x7 x8) reducesTo_S10000x64_S10000_d1 (by decide) h_S_ _ _ _ r k).trans ?_
  refine logSoftmax_row _ _ r r (fun k' => ?_) k
  unfold val_main_v32 val_main_v31 val_main_v30 val_main_v29
  refine (host_dense _ plain_dense2 _ x7 x8 _ _ r k').trans ?_
  refine dense_row _ _ _ _ r r (fun j => ?_) k'
  unfold val_main_v28 val_main_v27 val_main_v26 val_main_v25 val_main_v24
  exact congrFun (host_filt _ plain_prop x1 _ x6 _ _) (ix2 r j)

/-- The reference's result is the network of its arguments. -/
theorem result_eq (x0 : (⟨S10000x128, .f32⟩ : BufTy).Contents (Elt Ideal)) (x1 : (⟨S10000x10000, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) : val_main_v33 (F := Ideal) x0 x1 x2 x3 x4 x5 x6 x7 x8 = net x0 x1 x2 x3 x4 x5 x6 x7 x8 := by
  rw [stage_last, stage_mid2, stage_mid1, stage_first]
  rfl

end Cert.ReferenceIdeal.Bridge

end
-- ==== Proof.lean ====
/-
  A four-layer graph network, computed band by band on the device, against the same network written on the host.

  With L the 10000 × 10000 operator and σ a vector of per-feature scales, a filtered layer is h − (L h) · diag σ. The
  network is: a filtered layer of the features followed by a dense layer and the maximum with zero; two more filtered
  layers, their scales the two rows of one 2 × 128 array; a last filtered layer followed by a dense layer and the
  row-wise logarithm of the softmax, (z − m) − log Σ exp (z − m) with m the row's maximum.

  The kernel program runs four grid regions. Each point of a region holds a band of 200 or 400 rows of the operator and
  the whole activation matrix, computes that band's rows of the layer and writes them back; the bands tile the rows, so
  after a region its output array is the layer of the arrays it found. The first region also writes a 16-bit copy of the
  operator that the later regions read; on the extended reals a change of format is the identity, so the copy is the
  operator. Between regions the host only reshapes parameter vectors into rows and cuts rows out of the array of scales.
  On the extended reals a product into a zero accumulator and the host's general product are the same finite sum, a lane
  reduction and the host's row reduction the same fold or sum, and every step after the dense layers works within a
  row; so the two programs compute the same function of their arguments, entry by entry, with no use of finiteness.

  The three frames are the programs' runs with the result forgotten; the idealization rewrote nothing, so its
  statement is trivial; the algebraic claim puts both runs' results at the network of the launch arguments.
-/
import proofs.«144061_g8177617732284_cont_9to1_m_958_4_alg».proof.Defs
import proofs.«144061_g8177617732284_cont_9to1_m_958_4_alg».proof.Proof.Gen.Kernel
import proofs.«144061_g8177617732284_cont_9to1_m_958_4_alg».proof.Proof.Gen.Kernel.Skeleton
import proofs.«144061_g8177617732284_cont_9to1_m_958_4_alg».proof.Proof.Gen.Kernel.Launch
import proofs.«144061_g8177617732284_cont_9to1_m_958_4_alg».proof.Proof.Gen.Kernel.Points
import proofs.«144061_g8177617732284_cont_9to1_m_958_4_alg».proof.Proof.Gen.Kernel.Frame
import proofs.«144061_g8177617732284_cont_9to1_m_958_4_alg».proof.Proof.Gen.KernelIdeal
import proofs.«144061_g8177617732284_cont_9to1_m_958_4_alg».proof.Proof.Gen.KernelIdeal.Skeleton
import proofs.«144061_g8177617732284_cont_9to1_m_958_4_alg».proof.Proof.Gen.KernelIdeal.Launch
import proofs.«144061_g8177617732284_cont_9to1_m_958_4_alg».proof.Proof.Gen.KernelIdeal.Points
import proofs.«144061_g8177617732284_cont_9to1_m_958_4_alg».proof.Proof.Gen.KernelIdeal.Frame
import proofs.«144061_g8177617732284_cont_9to1_m_958_4_alg».proof.Proof.Gen.ReferenceIdeal
import proofs.«144061_g8177617732284_cont_9to1_m_958_4_alg».proof.Proof.Gen.Pre_finite_inputs
import proofs.«144061_g8177617732284_cont_9to1_m_958_4_alg».proof.Proof.Chain
import proofs.«144061_g8177617732284_cont_9to1_m_958_4_alg».proof.Proof.RefValue
import Idealize.ShloMosaic.Adequacy
import Idealize.ShloMosaic.Init

noncomputable section

namespace Cert.Proof

open Idealize.ShloMosaic Idealize.ShloMosaic.TcCoe Idealize.SL.Sem Cert.Layers

/-- The word-level kernel runs, faults nowhere, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the network of the launch arguments in their result buffers. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.ReadP.val_main_v33_eq, Cert.ReferenceIdeal.Bridge.result_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
